-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_angle_unit" .f32 0x40060A92#32 ((33554432 / 16021061 : ℝ) : EReal)
  ∧ IdealRules.named_const.Statement Cert.KernelIdeal.κ "inv_angle_unit" .f32 0x40060A92#32 ((33554432 / 16021061 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v145)) (v1 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_v147) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S1000000 : Shape := ⟨1, ![1000000]⟩
abbrev S500x64 : Shape := ⟨2, ![500, 64]⟩
abbrev S128x128 : Shape := ⟨2, ![128, 128]⟩
abbrev S64x64 : Shape := ⟨2, ![64, 64]⟩
abbrev S1x64 : Shape := ⟨2, ![1, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S128x128 : S_.BroadcastsInDim S128x128 (![] : Fin 0 → Fin S128x128.rank)
  reducesTo_S128x128_S_d0_1 : S128x128.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg6 : FVec F S128x128 .f32) (main_arg7 : FVec F S64x64 .f32) (main_arg8 : FVec F S1x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S1x64 .f32 := Host.absf main_arg8
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S100000x128 .f32) (main_arg1 : IVec S2x1000000 32) (main_arg2 : IVec S1000000 32) (main_arg3 : FVec F S500x64 .f32) (main_arg4 : FVec F S128x128 .f32) (main_arg5 : FVec F S128x128 .f32) (main_arg6 : FVec F S128x128 .f32) (main_arg7 : FVec F S64x64 .f32) (main_arg8 : FVec F S1x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500x64 .f32 := Host.absf main_arg3
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1000000 : Shape := ⟨2, ![2, 1000000]⟩
abbrev S1000000 : Shape := ⟨1, ![1000000]⟩
abbrev S500x64 : Shape := ⟨2, ![500, 64]⟩
abbrev S128x128 : Shape := ⟨2, ![128, 128]⟩
abbrev S64x64 : Shape := ⟨2, ![64, 64]⟩
abbrev S1x64 : Shape := ⟨2, ![1, 64]⟩
abbrev S501x64 : Shape := ⟨2, ![501, 64]⟩
abbrev S2x500000 : Shape := ⟨2, ![2, 500000]⟩
abbrev S500000 : Shape := ⟨1, ![500000]⟩
abbrev S1x500000 : Shape := ⟨2, ![1, 500000]⟩
abbrev S_ : Shape := ⟨0, ![]⟩
abbrev S100000 : Shape := ⟨1, ![100000]⟩
abbrev S500000x1 : Shape := ⟨2, ![500000, 1]⟩
abbrev S500000x128 : Shape := ⟨2, ![500000, 128]⟩
abbrev S500000x64 : Shape := ⟨2, ![500000, 64]⟩
abbrev S1000000x128 : Shape := ⟨2, ![1000000, 128]⟩
abbrev S1000000x64 : Shape := ⟨2, ![1000000, 64]⟩
abbrev S1x128x128 : Shape := ⟨3, ![1, 128, 128]⟩
abbrev S2x128x128 : Shape := ⟨3, ![2, 128, 128]⟩
abbrev S4000x128 : Shape := ⟨2, ![4000, 128]⟩
abbrev S4000x64 : Shape := ⟨2, ![4000, 64]⟩

abbrev nBuf : Space → Nat
  | .hbm => 205
  | .vmem => 18
  | .smem => 0
  | _ => 0

abbrev hbmTy0_0 (i : Nat) : BufTy := match i % 128 with
  | 0 => ⟨S100000x128, .f32⟩
  | 1 => ⟨S2x1000000, .i32⟩
  | 2 => ⟨S1000000, .i32⟩
  | 3 => ⟨S500x64, .f32⟩
  | 4 => ⟨S128x128, .f32⟩
  | 5 => ⟨S128x128, .f32⟩
  | 6 => ⟨S128x128, .f32⟩
  | 7 => ⟨S64x64, .f32⟩
  | 8 => ⟨S1x64, .f32⟩
  | 9 => ⟨S501x64, .f32⟩
  | 10 => ⟨S2x500000, .i32⟩
  | 11 => ⟨S2x500000, .i32⟩
  | 12 => ⟨S500000, .i32⟩
  | 13 => ⟨S500000, .i32⟩
  | 14 => ⟨S1x500000, .i32⟩
  | 15 => ⟨S500000, .i32⟩
  | 16 => ⟨S1x500000, .i32⟩
  | 17 => ⟨S500000, .i32⟩
  | 18 => ⟨S_, .f32⟩
  | 19 => ⟨S100000, .f32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S_, .f32⟩
  | 29 => ⟨S500000, .f32⟩
  | 30 => ⟨S100000, .f32⟩
  | 31 => ⟨S_, .f32⟩
  | 32 => ⟨S100000, .f32⟩
  | 33 => ⟨S100000, .i1⟩
  | 34 => ⟨S_, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S_, .f32⟩
  | 45 => ⟨S_, .f32⟩
  | 46 => ⟨S100000, .f32⟩
  | 47 => ⟨S100000, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000, .f32⟩
  | 66 => ⟨S500000, .f32⟩
  | 67 => ⟨S1x500000, .i32⟩
  | 68 => ⟨S500000, .i32⟩
  | 69 => ⟨S1x500000, .i32⟩
  | 70 => ⟨S500000, .i32⟩
  | 71 => ⟨S_, .f32⟩
  | 72 => ⟨S100000, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S_, .f32⟩
  | 82 => ⟨S500000, .f32⟩
  | 83 => ⟨S100000, .f32⟩
  | 84 => ⟨S_, .f32⟩
  | 85 => ⟨S100000, .f32⟩
  | 86 => ⟨S100000, .i1⟩
  | 87 => ⟨S_, .f32⟩
  | 88 => ⟨S_, .f32⟩
  | 89 => ⟨S100000, .f32⟩
  | 90 => ⟨S100000, .f32⟩
  | 91 => ⟨S_, .f32⟩
  | 92 => ⟨S100000, .f32⟩
  | 93 => ⟨S100000, .i1⟩
  | 94 => ⟨S_, .f32⟩
  | 95 => ⟨S100000, .f32⟩
  | 96 => ⟨S100000, .f32⟩
  | 97 => ⟨S_, .f32⟩
  | 98 => ⟨S_, .f32⟩
  | 99 => ⟨S100000, .f32⟩
  | 100 => ⟨S100000, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000, .f32⟩
  | 119 => ⟨S500000, .f32⟩
  | 120 => ⟨S1x500000, .i32⟩
  | 121 => ⟨S500000, .i32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S100000x128, .f32⟩

abbrev hbmTy0_1 (i : Nat) : BufTy := match i % 128 with
  | 0 => ⟨S500000, .i32⟩
  | 1 => ⟨S500000x1, .i32⟩
  | 2 => ⟨S500000x128, .f32⟩
  | 3 => ⟨S500000x1, .f32⟩
  | 4 => ⟨S500000x128, .f32⟩
  | 5 => ⟨S500000x128, .f32⟩
  | 6 => ⟨S500000x128, .bf16⟩
  | 7 => ⟨S1x500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x128, .f32⟩
  | 18 => ⟨S500000x1, .f32⟩
  | 19 => ⟨S500000x128, .f32⟩
  | 20 => ⟨S500000x128, .f32⟩
  | 21 => ⟨S500000x128, .bf16⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x64, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x64, .f32⟩
  | 40 => ⟨S1000000x128, .bf16⟩
  | 41 => ⟨S1000000x64, .f32⟩
  | 42 => ⟨S1x128x128, .f32⟩
  | 43 => ⟨S1x128x128, .f32⟩
  | 44 => ⟨S2x128x128, .f32⟩
  | 45 => ⟨S1000000x128, .f32⟩
  | 46 => ⟨S500000x128, .f32⟩
  | 47 => ⟨S500000x128, .f32⟩
  | 48 => ⟨S_, .f32⟩
  | 49 => ⟨S100000x128, .f32⟩
  | 50 => ⟨S1x500000, .i32⟩
  | 51 => ⟨S500000, .i32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S100000x128, .f32⟩
  | 61 => ⟨S_, .f32⟩
  | 62 => ⟨S100000x128, .f32⟩
  | 63 => ⟨S1x500000, .i32⟩
  | 64 => ⟨S500000, .i32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S100000x128, .f32⟩
  | 74 => ⟨S100000x128, .f32⟩
  | 75 => ⟨S501x64, .f32⟩
  | 76 => ⟨S500x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S4000x64, .f32⟩
  | .local _ .vmem, ⟨3, _⟩ => ⟨S4000x64, .f32⟩
  | .local _ .vmem, ⟨4, _⟩ => ⟨S1x128x128, .f32⟩
  | .local _ .vmem, ⟨5, _⟩ => ⟨S1x128x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S1x64, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_c_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_c_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_cst_15 : Ref sig .tc := ⟨.hbm, 84, rfl⟩
abbrev main_v54 : Ref sig .tc := ⟨.hbm, 85, rfl⟩
abbrev main_v55 : Ref sig .tc := ⟨.hbm, 86, rfl⟩
abbrev main_cst_16 : Ref sig .tc := ⟨.hbm, 87, rfl⟩
abbrev main_call2_v0 : Ref sig .tc := ⟨.hbm, 88, rfl⟩
abbrev main_call2_v1 : Ref sig .tc := ⟨.hbm, 89, rfl⟩
abbrev main_v56 : Ref sig .tc := ⟨.hbm, 90, rfl⟩
abbrev main_cst_17 : Ref sig .tc := ⟨.hbm, 91, rfl⟩
abbrev main_v57 : Ref sig .tc := ⟨.hbm, 92, rfl⟩
abbrev main_v58 : Ref sig .tc := ⟨.hbm, 93, rfl⟩
abbrev main_cst_18 : Ref sig .tc := ⟨.hbm, 94, rfl⟩
abbrev main_v59 : Ref sig .tc := ⟨.hbm, 95, rfl⟩
abbrev main_v60 : Ref sig .tc := ⟨.hbm, 96, rfl⟩
abbrev main_cst_19 : Ref sig .tc := ⟨.hbm, 97, rfl⟩
abbrev main_call3_v0 : Ref sig .tc := ⟨.hbm, 98, rfl⟩
abbrev main_call3_v1 : Ref sig .tc := ⟨.hbm, 99, rfl⟩
abbrev main_v61 : Ref sig .tc := ⟨.hbm, 100, rfl⟩
abbrev main_c_20 : Ref sig .tc := ⟨.hbm, 101, rfl⟩
abbrev main_v62 : Ref sig .tc := ⟨.hbm, 102, rfl⟩
abbrev main_v63 : Ref sig .tc := ⟨.hbm, 103, rfl⟩
abbrev main_c_21 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_22 : Ref sig .tc := ⟨.hbm, 110, rfl⟩
abbrev main_v69 : Ref sig .tc := ⟨.hbm, 111, rfl⟩
abbrev main_v70 : Ref sig .tc := ⟨.hbm, 112, rfl⟩
abbrev main_c_23 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_24 : Ref sig .tc := ⟨.hbm, 122, rfl⟩
abbrev main_v79 : Ref sig .tc := ⟨.hbm, 123, rfl⟩
abbrev main_v80 : Ref sig .tc := ⟨.hbm, 124, rfl⟩
abbrev main_c_25 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_c_26 : Ref sig .tc := ⟨.hbm, 137, rfl⟩
abbrev main_v92 : Ref sig .tc := ⟨.hbm, 138, rfl⟩
abbrev main_v93 : Ref sig .tc := ⟨.hbm, 139, rfl⟩
abbrev main_c_27 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_28 : Ref sig .tc := ⟨.hbm, 150, rfl⟩
abbrev main_v103 : Ref sig .tc := ⟨.hbm, 151, rfl⟩
abbrev main_v104 : Ref sig .tc := ⟨.hbm, 152, rfl⟩
abbrev main_c_29 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_c_30 : Ref sig .tc := ⟨.hbm, 159, rfl⟩
abbrev main_v110 : Ref sig .tc := ⟨.hbm, 160, rfl⟩
abbrev main_v111 : Ref sig .tc := ⟨.hbm, 161, rfl⟩
abbrev main_c_31 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_32 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_c_33 : Ref sig .tc := ⟨.hbm, 180, rfl⟩
abbrev main_v128 : Ref sig .tc := ⟨.hbm, 181, rfl⟩
abbrev main_v129 : Ref sig .tc := ⟨.hbm, 182, rfl⟩
abbrev main_c_34 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_35 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_c_36 : Ref sig .tc := ⟨.hbm, 193, rfl⟩
abbrev main_v138 : Ref sig .tc := ⟨.hbm, 194, rfl⟩
abbrev main_v139 : Ref sig .tc := ⟨.hbm, 195, rfl⟩
abbrev main_c_37 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c125_i32 : BitVec 32 := 125#32
  let v0 : BitVec 32 := Scalar.divsi arg0 c125_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c125_i32 c0_i32_1
  let v7 : BitVec 32 := Scalar.extui v6
  let c0_i32_2 : BitVec 32 := 0#32
  let v8 : BitVec 1 := Scalar.cmpi .slt c125_i32 c0_i32_2
  let v9 : BitVec 32 := Scalar.extui v8
  let v10 : BitVec 32 := Scalar.subi v7 v9
  let v11 : BitVec 1 := Scalar.cmpi .ne v5 v10
  let v12 : BitVec 32 := Scalar.remsi arg0 c125_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S500x64_S1x64_S501x64_d0 : Shape.Concatenates [S500x64, S1x64] S501x64 0
  slices_S2x1000000_S2x500000_0_0 : S2x1000000.Slices ![0, 0] S2x500000
  slices_S2x1000000_S2x500000_0_500000 : S2x1000000.Slices ![0, 500000] S2x500000
  slices_S1000000_S500000_0 : S1000000.Slices ![0] S500000
  slices_S1000000_S500000_500000 : S1000000.Slices ![500000] S500000
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S100000 : S_.BroadcastsInDim S100000 (![] : Fin 0 → Fin S100000.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bitsLt_bf16_f32 : FTy.bits .bf16 < FTy.bits .f32
  concatenates_S500000x128_S500000x128_S1000000x128_d0 : Shape.Concatenates [S500000x128, S500000x128] S1000000x128 0
  concatenates_S500000x64_S500000x64_S1000000x64_d0 : Shape.Concatenates [S500000x64, S500000x64] S1000000x64 0
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  slices_S4000x128_o0_0_S4000x64 : S4000x128.Slices ![0, 0] S4000x64
  slices_S4000x128_o0_64_S4000x64 : S4000x128.Slices ![0, 64] S4000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  concatenates_S4000x64_S4000x64_S4000x128_d1 : Shape.Concatenates [S4000x64, S4000x64] S4000x128 1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  slices_S1000000x128_S500000x128_0_0 : S1000000x128.Slices ![0, 0] S500000x128
  slices_S1000000x128_S500000x128_500000_0 : S1000000x128.Slices ![500000, 0] S500000x128
  bcast_S_S100000x128 : S_.BroadcastsInDim S100000x128 (![] : Fin 0 → Fin S100000x128.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S128x128_S128x128_0_0 : ∀ a, (![0, 0] : Fin 2 → Nat) a + S128x128.size a ≤ S128x128.size a
  h_S128x128 : 0 < S128x128.numel
  slices_S501x64_S500x64_0_0 : S501x64.Slices ![0, 0] S500x64
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x128_S500000x1_S500000x128_1_0_n_n_0_1_1128_wf : GatherDims.WF S100000x128 S500000x1 S500000x128 [1] [0] [] [0] [] 1 ![1, 128]
  gather_S501x64_S500000x1_S500000x64_1_0_n_n_0_1_164_wf : GatherDims.WF S501x64 S500000x1 S500000x64 [1] [0] [] [0] [] 1 ![1, 64]
  dot_S4000x128_S128x128_S4000x128_1_0_0_1_n_n_wf : DotDims.WF S4000x128 S128x128 S4000x128 [1] [0] [0] [1] [] []
  scatter_S100000x128_S500000x1_S500000x128_1_0_0_1_wf : ScatterDims.WF S100000x128 S500000x1 S500000x128 [1] [0] [0] 1
  dot_S501x64_S64x64_S501x64_1_0_0_1_n_n_wf : DotDims.WF S501x64 S64x64 S501x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .bf16 = 32 ∨ (Rect.block (s := S1000000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .f32 = 32 ∨ (Rect.block (s := S1000000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S1000000x128.size a
  hwx0_3 : ∀ i : grid0.Coords, EltTy.bits .f32 = 32 ∨ (Rect.block (s := S1000000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S501x64_S500000x1_S500000x64_1_0_n_n_0_1_164 : GatherDims S501x64 S500000x1 S500000x64 where
  offsetDims := [1]
  collapsedSliceDims := [0]
  operandBatchingDims := []
  startIndicesBatchingDims := []
  startIndexMap := [0]
  indexVectorDim := 1
  sliceSizes := ![1, 64]
  wf := gather_S501x64_S500000x1_S500000x64_1_0_n_n_0_1_164_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S501x64_S64x64_S501x64_1_0_0_1_n_n : DotDims S501x64 S64x64 S501x64 where
  lhsContracting := [1]
  rhsContracting := [0]
  lhsNonContracting := [0]
  rhsNonContracting := [1]
  lhsBatch := []
  rhsBatch := []
  wf := dot_S501x64_S64x64_S501x64_1_0_0_1_n_n_wf

abbrev win0_0 : Pipeline.Window sig grid0 :=
  Pipeline.Window.ofSpec (Memref.whole main_v117) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v118) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v121) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v122) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v134) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v144) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v145) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  halias1_5 : Pipeline.Aliased win1 1 5

variable [Facts]
-- ==== ReferenceIdeal.lean ====
abbrev S100000x128 : Shape := ⟨2, ![100000, 128]⟩
abbrev S2x1000000 : Shape := ⟨2, ![2, 1000000]⟩
abbrev S1000000 : Shape := ⟨1, ![1000000]⟩
abbrev S500x64 : Shape := ⟨2, ![500, 64]⟩
abbrev S128x128 : Shape := ⟨2, ![128, 128]⟩
abbrev S64x64 : Shape := ⟨2, ![64, 64]⟩
abbrev S1x64 : Shape := ⟨2, ![1, 64]⟩
abbrev S501x64 : Shape := ⟨2, ![501, 64]⟩
abbrev S2x500000 : Shape := ⟨2, ![2, 500000]⟩
abbrev S500000 : Shape := ⟨1, ![500000]⟩
abbrev S1x500000 : Shape := ⟨2, ![1, 500000]⟩
abbrev S_ : Shape := ⟨0, ![]⟩
abbrev S100000 : Shape := ⟨1, ![100000]⟩
abbrev S500000x1 : Shape := ⟨2, ![500000, 1]⟩
abbrev S500000x128 : Shape := ⟨2, ![500000, 128]⟩
abbrev S500000x64 : Shape := ⟨2, ![500000, 64]⟩
abbrev S64 : Shape := ⟨1, ![64]⟩
abbrev S100000x64 : Shape := ⟨2, ![100000, 64]⟩

abbrev nBuf : Space → Nat
  | .hbm => 233
  | .vmem => 0
  | .smem => 0
  | _ => 0

abbrev hbmTy0_0 (i : Nat) : BufTy := match i % 128 with
  | 0 => ⟨S100000x128, .f32⟩
  | 1 => ⟨S2x1000000, .i32⟩
  | 2 => ⟨S1000000, .i32⟩
  | 3 => ⟨S500x64, .f32⟩
  | 4 => ⟨S128x128, .f32⟩
  | 5 => ⟨S128x128, .f32⟩
  | 6 => ⟨S128x128, .f32⟩
  | 7 => ⟨S64x64, .f32⟩
  | 8 => ⟨S1x64, .f32⟩
  | 9 => ⟨S501x64, .f32⟩
  | 10 => ⟨S2x500000, .i32⟩
  | 11 => ⟨S2x500000, .i32⟩
  | 12 => ⟨S500000, .i32⟩
  | 13 => ⟨S500000, .i32⟩
  | 14 => ⟨S1x500000, .i32⟩
  | 15 => ⟨S500000, .i32⟩
  | 16 => ⟨S1x500000, .i32⟩
  | 17 => ⟨S500000, .i32⟩
  | 18 => ⟨S_, .f32⟩
  | 19 => ⟨S100000, .f32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S_, .f32⟩
  | 29 => ⟨S500000, .f32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000, .f32⟩
  | 59 => ⟨S500000, .f32⟩
  | 60 => ⟨S1x500000, .i32⟩
  | 61 => ⟨S500000, .i32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x128, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x64, .f32⟩
  | 80 => ⟨S500000x64, .f32⟩
  | 81 => ⟨S500000x64, .f32⟩
  | 82 => ⟨S_, .f32⟩
  | 83 => ⟨S500000x64, .f32⟩
  | 84 => ⟨S500000x64, .f32⟩
  | 85 => ⟨S500000x64, .f32⟩
  | 86 => ⟨S500000x64, .f32⟩
  | 87 => ⟨S500000x64, .f32⟩
  | 88 => ⟨S500000x64, .f32⟩
  | 89 => ⟨S500000x64, .f32⟩
  | 90 => ⟨S500000x64, .f32⟩
  | 91 => ⟨S500000x64, .f32⟩
  | 92 => ⟨S500000x64, .f32⟩
  | 93 => ⟨S500000x128, .f32⟩
  | 94 => ⟨S500000x128, .f32⟩
  | 95 => ⟨S500000x1, .f32⟩
  | 96 => ⟨S500000x128, .f32⟩
  | 97 => ⟨S500000x128, .f32⟩
  | 98 => ⟨S_, .f32⟩
  | 99 => ⟨S100000x128, .f32⟩
  | 100 => ⟨S1x500000, .i32⟩
  | 101 => ⟨S500000, .i32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S100000x128, .f32⟩
  | 111 => ⟨S1x500000, .i32⟩
  | 112 => ⟨S500000, .i32⟩
  | 113 => ⟨S1x500000, .i32⟩
  | 114 => ⟨S500000, .i32⟩
  | 115 => ⟨S_, .f32⟩
  | 116 => ⟨S100000, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S_, .f32⟩
  | 126 => ⟨S500000, .f32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .i1⟩
  | 3 => ⟨S_, .f32⟩
  | 4 => ⟨S100000, .f32⟩
  | 5 => ⟨S100000, .f32⟩
  | 6 => ⟨S_, .f32⟩
  | 7 => ⟨S_, .f32⟩
  | 8 => ⟨S100000, .f32⟩
  | 9 => ⟨S100000, .f32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000, .f32⟩
  | 28 => ⟨S500000, .f32⟩
  | 29 => ⟨S1x500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x64, .f32⟩
  | 49 => ⟨S500000x64, .f32⟩
  | 50 => ⟨S500000x64, .f32⟩
  | 51 => ⟨S_, .f32⟩
  | 52 => ⟨S500000x64, .f32⟩
  | 53 => ⟨S500000x64, .f32⟩
  | 54 => ⟨S500000x64, .f32⟩
  | 55 => ⟨S500000x64, .f32⟩
  | 56 => ⟨S500000x64, .f32⟩
  | 57 => ⟨S500000x64, .f32⟩
  | 58 => ⟨S500000x64, .f32⟩
  | 59 => ⟨S500000x64, .f32⟩
  | 60 => ⟨S500000x64, .f32⟩
  | 61 => ⟨S500000x64, .f32⟩
  | 62 => ⟨S500000x128, .f32⟩
  | 63 => ⟨S500000x128, .f32⟩
  | 64 => ⟨S500000x1, .f32⟩
  | 65 => ⟨S500000x128, .f32⟩
  | 66 => ⟨S500000x128, .f32⟩
  | 67 => ⟨S_, .f32⟩
  | 68 => ⟨S100000x128, .f32⟩
  | 69 => ⟨S1x500000, .i32⟩
  | 70 => ⟨S500000, .i32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S100000x128, .f32⟩
  | 80 => ⟨S1x64, .f32⟩
  | 81 => ⟨S64, .f32⟩
  | 82 => ⟨S100000x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S100000x64, .f32⟩
  | 95 => ⟨S100000x64, .f32⟩
  | 96 => ⟨S100000x128, .f32⟩
  | 97 => ⟨S100000x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S501x64, .f32⟩
  | 104 => ⟨S500x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_15 : Ref sig .tc := ⟨.hbm, 102, rfl⟩
abbrev main_v74 : Ref sig .tc := ⟨.hbm, 103, rfl⟩
abbrev main_v75 : Ref sig .tc := ⟨.hbm, 104, rfl⟩
abbrev main_c_16 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_c_18 : Ref sig .tc := ⟨.hbm, 117, rfl⟩
abbrev main_v86 : Ref sig .tc := ⟨.hbm, 118, rfl⟩
abbrev main_v87 : Ref sig .tc := ⟨.hbm, 119, rfl⟩
abbrev main_c_19 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_20 : Ref sig .tc := ⟨.hbm, 125, rfl⟩
abbrev main_v92 : Ref sig .tc := ⟨.hbm, 126, rfl⟩
abbrev main_v93 : Ref sig .tc := ⟨.hbm, 127, rfl⟩
abbrev main_cst_21 : Ref sig .tc := ⟨.hbm, 128, rfl⟩
abbrev main_v94 : Ref sig .tc := ⟨.hbm, 129, rfl⟩
abbrev main_v95 : Ref sig .tc := ⟨.hbm, 130, rfl⟩
abbrev main_cst_22 : Ref sig .tc := ⟨.hbm, 131, rfl⟩
abbrev main_v96 : Ref sig .tc := ⟨.hbm, 132, rfl⟩
abbrev main_v97 : Ref sig .tc := ⟨.hbm, 133, rfl⟩
abbrev main_cst_23 : Ref sig .tc := ⟨.hbm, 134, rfl⟩
abbrev main_call1_v0 : Ref sig .tc := ⟨.hbm, 135, rfl⟩
abbrev main_call1_v1 : Ref sig .tc := ⟨.hbm, 136, rfl⟩
abbrev main_v98 : Ref sig .tc := ⟨.hbm, 137, rfl⟩
abbrev main_c_24 : Ref sig .tc := ⟨.hbm, 138, rfl⟩
abbrev main_v99 : Ref sig .tc := ⟨.hbm, 139, rfl⟩
abbrev main_v100 : Ref sig .tc := ⟨.hbm, 140, rfl⟩
abbrev main_c_25 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_26 : Ref sig .tc := ⟨.hbm, 147, rfl⟩
abbrev main_v106 : Ref sig .tc := ⟨.hbm, 148, rfl⟩
abbrev main_v107 : Ref sig .tc := ⟨.hbm, 149, rfl⟩
abbrev main_c_27 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_c_28 : Ref sig .tc := ⟨.hbm, 159, rfl⟩
abbrev main_v116 : Ref sig .tc := ⟨.hbm, 160, rfl⟩
abbrev main_v117 : Ref sig .tc := ⟨.hbm, 161, rfl⟩
abbrev main_c_29 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_c_30 : Ref sig .tc := ⟨.hbm, 168, rfl⟩
abbrev main_v123 : Ref sig .tc := ⟨.hbm, 169, rfl⟩
abbrev main_v124 : Ref sig .tc := ⟨.hbm, 170, rfl⟩
abbrev main_c_31 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_32 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_33 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_c_34 : Ref sig .tc := ⟨.hbm, 199, rfl⟩
abbrev main_v150 : Ref sig .tc := ⟨.hbm, 200, rfl⟩
abbrev main_v151 : Ref sig .tc := ⟨.hbm, 201, rfl⟩
abbrev main_c_35 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_cst_36 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_37 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩

abbrev nD : Nat := 1
abbrev τ : Topo := Topo.v7x

variable {F : FTy → Type} [FloatOps F]

class Facts₀ : Prop where
  concatenates_S500x64_S1x64_S501x64_d0 : Shape.Concatenates [S500x64, S1x64] S501x64 0
  slices_S2x1000000_S2x500000_0_0 : S2x1000000.Slices ![0, 0] S2x500000
  slices_S2x1000000_S2x500000_0_500000 : S2x1000000.Slices ![0, 500000] S2x500000
  slices_S1000000_S500000_0 : S1000000.Slices ![0] S500000
  slices_S1000000_S500000_500000 : S1000000.Slices ![500000] S500000
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S100000 : S_.BroadcastsInDim S100000 (![] : Fin 0 → Fin S100000.rank)
  bcast_S_S500000 : S_.BroadcastsInDim S500000 (![] : Fin 0 → Fin S500000.rank)
  bcast_S500000_S500000x1_0 : S500000.BroadcastsInDim S500000x1 (![0] : Fin 1 → Fin S500000x1.rank)
  slices_S500000x128_S500000x64_0_0 : S500000x128.Slices ![0, 0] S500000x64
  slices_S500000x128_S500000x64_0_64 : S500000x128.Slices ![0, 64] S500000x64
  bcast_S_S500000x64 : S_.BroadcastsInDim S500000x64 (![] : Fin 0 → Fin S500000x64.rank)
  concatenates_S500000x64_S500000x64_S500000x128_d1 : Shape.Concatenates [S500000x64, S500000x64] S500000x128 1
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  slices_S501x64_S1x64_500_0 : S501x64.Slices ![500, 0] S1x64
  shapeCasts_S1x64_S64 : S1x64.ShapeCasts S64
  bcast_S64_S100000x64_1 : S64.BroadcastsInDim S100000x64 (![1] : Fin 1 → Fin S100000x64.rank)
  slices_S100000x128_S100000x64_0_0 : S100000x128.Slices ![0, 0] S100000x64
  slices_S100000x128_S100000x64_0_64 : S100000x128.Slices ![0, 64] S100000x64
  bcast_S_S100000x64 : S_.BroadcastsInDim S100000x64 (![] : Fin 0 → Fin S100000x64.rank)
  concatenates_S100000x64_S100000x64_S100000x128_d1 : Shape.Concatenates [S100000x64, S100000x64] S100000x128 1
  slices_S501x64_S500x64_0_0 : S501x64.Slices ![0, 0] S500x64
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x128_S500000x1_S500000x128_1_0_n_n_0_1_1128_wf : GatherDims.WF S100000x128 S500000x1 S500000x128 [1] [0] [] [0] [] 1 ![1, 128]
  gather_S501x64_S500000x1_S500000x64_1_0_n_n_0_1_164_wf : GatherDims.WF S501x64 S500000x1 S500000x64 [1] [0] [] [0] [] 1 ![1, 64]
  dot_S500000x128_S128x128_S500000x128_1_0_0_1_n_n_wf : DotDims.WF S500000x128 S128x128 S500000x128 [1] [0] [0] [1] [] []
  scatter_S100000x128_S500000x1_S500000x128_1_0_0_1_wf : ScatterDims.WF S100000x128 S500000x1 S500000x128 [1] [0] [0] 1
  dot_S100000x128_S128x128_S100000x128_1_0_0_1_n_n_wf : DotDims.WF S100000x128 S128x128 S100000x128 [1] [0] [0] [1] [] []
  dot_S501x64_S64x64_S501x64_1_0_0_1_n_n_wf : DotDims.WF S501x64 S64x64 S501x64 [1] [0] [0] [1] [] []

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S501x64_S500000x1_S500000x64_1_0_n_n_0_1_164 : GatherDims S501x64 S500000x1 S500000x64 where
  offsetDims := [1]
  collapsedSliceDims := [0]
  operandBatchingDims := []
  startIndicesBatchingDims := []
  startIndexMap := [0]
  indexVectorDim := 1
  sliceSizes := ![1, 64]
  wf := gather_S501x64_S500000x1_S500000x64_1_0_n_n_0_1_164_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S501x64_S64x64_S501x64_1_0_0_1_n_n : DotDims S501x64 S64x64 S501x64 where
  lhsContracting := [1]
  rhsContracting := [0]
  lhsNonContracting := [0]
  rhsNonContracting := [1]
  lhsBatch := []
  rhsBatch := []
  wf := dot_S501x64_S64x64_S501x64_1_0_0_1_n_n_wf

class Facts : Prop extends Facts₀ where

variable [Facts]
-- ==== Proof.KernelRun.lean ====
/-
  The idealized kernel's run with its two result arrays named.

  @main is thirteen segments: nine stretches of host operations, the message region, a stretch, the update region, a
  last stretch.  The buffer contents at each boundary are a fold from the launch memory; after the last segment every
  buffer outside a scope holds the fold's final contents.  Read at the two result buffers, that is what the run
  returns; read at an argument, the launch contents.
-/
import proofs.«178232_j34394098106413_2_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the final
    contents of the fold through the segments and the argument arrays as launched. -/
theorem run_results : θ_run defs (onTc (τ := τ) (main (F := F))) ⟨m, fun _ => 0, ρ⟩ (fun r => ∀ c : Dev nD,
      r.2.mem ((c.tc : Thread nD τ).loc main_v145) = W13 m ρ c (Proc.devRef .tc main_v145)
      ∧ r.2.mem ((c.tc : Thread nD τ).loc main_v147) = W13 m ρ c (Proc.devRef .tc main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v145 (by decide)),
       h c _ (mem_uc main_v147 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.Results

end
-- ==== Proof.HostTerms.lean ====
/-
  The stages of the host computation that both programs share, as functions of the argument arrays.

  edge_index [2, 1000000] holds two directions of 500000 edges side by side; row 0 of a direction's half is the
  edges' target entities, row 1 their source entities; edge_type [1000000] holds the two directions' relation numbers
  end to end.  An index i < 0 is read as i + (table length).  A direction's degree vector counts, per entity, the
  edges that target it; its inverse square root is deg^(−1/2) where deg > 0 and 0 elsewhere; an edge's weight is the
  product of that quantity at its target and at its source.  The kernel guards the base of the power by the same
  test (deg where deg > 0, else 1) before taking it; the reference does not.
-/
import proofs.«178232_j34394098106413_2_alg».proof.KernelIdeal
import Idealize.ShloMosaic.PureOps.Ideal

noncomputable section

namespace Cert.KernelIdeal.HostTerms

open Idealize.ShloMosaic Cert.KernelIdeal

variable [Facts₀]
open Facts₀

/-- The first direction's half of edge_index. -/
def firstHalf (E : IVec S2x1000000 32) : IVec S2x500000 32 :=
  extractStridedSlice S2x500000 ![0, 0] E slices_S2x1000000_S2x500000_0_0
/-- The second direction's half of edge_index. -/
def secondHalf (E : IVec S2x1000000 32) : IVec S2x500000 32 :=
  extractStridedSlice S2x500000 ![0, 500000] E slices_S2x1000000_S2x500000_0_500000
/-- The first direction's relation numbers. -/
def firstTypes (T : IVec S1000000 32) : IVec S500000 32 :=
  extractStridedSlice S500000 ![0] T slices_S1000000_S500000_0
/-- The second direction's relation numbers. -/
def secondTypes (T : IVec S1000000 32) : IVec S500000 32 :=
  extractStridedSlice S500000 ![500000] T slices_S1000000_S500000_500000
/-- A direction's target entities (row 0 of its half). -/
def targetRow (half : IVec S2x500000 32) : IVec S500000 32 :=
  shapeCast S500000 (extractStridedSlice S1x500000 ![0, 0] half slices_S2x500000_S1x500000_0_0) shapeCasts_S1x500000_S500000
/-- A direction's source entities (row 1 of its half). -/
def sourceRow (half : IVec S2x500000 32) : IVec S500000 32 :=
  shapeCast S500000 (extractStridedSlice S1x500000 ![1, 0] half slices_S2x500000_S1x500000_1_0) shapeCasts_S1x500000_S500000
/-- Entity numbers made non-negative (i < 0 reads as i + 100000), as a column of start indices. -/
def signedIndex (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)
/-- Relation numbers made non-negative (i < 0 reads as i + 501), as a column of start indices. -/
def signedType (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 501#32))) v)
/-- The relation table [rel_embed ; loop_rel]. -/
def relTable (a3 : FVec Ideal S500x64 .f32) (a8 : FVec Ideal S1x64 .f32) : FVec Ideal S501x64 .f32 :=
  concatenate S501x64 0 [⟨S500x64, a3⟩, ⟨S1x64, a8⟩] concatenates_S500x64_S1x64_S501x64_d0
/-- A vector of 100000 copies of the f32 word w. -/
def splat100k (w : BitVec 32) : FVec Ideal S100000 .f32 :=
  broadcastInDim S100000 ![] bcast_S_S100000 (constant (F := Ideal) S_ .f32 w)
/-- A direction's degree vector: ones added into zeros at the edges' targets. -/
def degree (half : IVec S2x500000 32) : FVec Ideal S100000 .f32 :=
  Host.scatterAdd scatter_S100000_S500000x1_S500000_n_0_0_1 (splat100k 0x00000000#32) (signedIndex (targetRow half))
    (broadcastInDim S500000 ![] bcast_S_S500000 (constant (F := Ideal) S_ .f32 0x3F800000#32))
/-- deg^(−1/2) where deg > 0, else 0. -/
def invSqrt (deg : FVec Ideal S100000 .f32) : FVec Ideal S100000 .f32 :=
  select (cmpf .ogt deg (splat100k 0x00000000#32)) (Host.powf deg (splat100k 0xBF000000#32)) (splat100k 0x00000000#32)
/-- The same with the base of the power guarded: (deg where deg > 0, else 1)^(−1/2) where deg > 0, else 0. -/
def invSqrtGuarded (deg : FVec Ideal S100000 .f32) : FVec Ideal S100000 .f32 :=
  select (cmpf .ogt deg (splat100k 0x00000000#32))
    (Host.powf (select (cmpf .ogt deg (splat100k 0x00000000#32)) deg (splat100k 0x3F800000#32)) (splat100k 0xBF000000#32))
    (splat100k 0x00000000#32)
/-- An edge's weight: the inverse square root at its target times that at its source. -/
def edgeWeight (dinv : FVec Ideal S100000 .f32) (half : IVec S2x500000 32) : FVec Ideal S500000 .f32 :=
  mulf (Host.gather gather_S100000_S500000x1_S500000_n_0_n_n_0_1_1 dinv (signedIndex (targetRow half)))
    (Host.gather gather_S100000_S500000x1_S500000_n_0_n_n_0_1_1 dinv (signedIndex (sourceRow half)))
/-- The edges' source entity rows. -/
def gatheredRows (X : FVec Ideal S100000x128 .f32) (half : IVec S2x500000 32) : FVec Ideal S500000x128 .f32 :=
  Host.gather gather_S100000x128_S500000x1_S500000x128_1_0_n_n_0_1_1128 X (signedIndex (sourceRow half))
/-- The edges' relation rows. -/
def gatheredRel (tbl : FVec Ideal S501x64 .f32) (types : IVec S500000 32) : FVec Ideal S500000x64 .f32 :=
  Host.gather gather_S501x64_S500000x1_S500000x64_1_0_n_n_0_1_164 tbl (signedType types)
/-- The zero entity table the messages are added into. -/
def zeroTable : FVec Ideal S100000x128 .f32 :=
  broadcastInDim S100000x128 ![] bcast_S_S100000x128 (constant (F := Ideal) S_ .f32 0x00000000#32)
/-- A direction's messages added into the zero table at the edges' targets. -/
def aggregate (half : IVec S2x500000 32) (msg : FVec Ideal S500000x128 .f32) : FVec Ideal S100000x128 .f32 :=
  Host.scatterAdd scatter_S100000x128_S500000x1_S500000x128_1_0_0_1 zeroTable (signedIndex (targetRow half)) msg

end Cert.KernelIdeal.HostTerms

end
-- ==== Proof.Spec.lean ====
/-
  The mathematics both programs compute, stated once over the extended reals.

  A row x of 128 entries is read as 64 complex numbers (re = x[0..64), im = x[64..128)) and composed with 64 angles θ:
  entry k < 64 of the composed row is re_k·cos θ_k + im_k·sin θ_k, entry k ≥ 64 is re_q·sin θ_q − im_q·cos θ_q with
  q = k − 64.  An edge's message is the composed row of its source entity (angles: the edge's relation row times the
  angle unit) contracted with a 128×128 weight; the entity update adds the two directions' aggregated messages and
  the self-loop message and takes a third.
-/
import Idealize.ShloMosaic.PureOps.Ideal
import Idealize.ShloMosaic.Lib.ValueIdx

noncomputable section

namespace Cert.RotConv

open Idealize.ShloMosaic Idealize.ShloMosaic.ValueIdx
open scoped BigOperators

/-- The angle unit: relation entries are multiplied by it (equivalently divided by its reciprocal 16021061/33554432). -/
def angleUnit : EReal := ((33554432 / 16021061 : ℝ) : EReal)

/-- The final scale of the entity update (the f32 word nearest to one third, read exactly). -/
def third : EReal := Ideal.ofBits .f32 0x3EAAAAAB#32

/-- Entry k of the row x composed with the angles θ. -/
def rotEntry (x : Fin 128 → EReal) (θ : Fin 64 → EReal) (k : Fin 128) : EReal :=
  if h : k.val < 64 then
    x ⟨k.val, by omega⟩ * Ideal.cos (θ ⟨k.val, h⟩) + x ⟨k.val + 64, by omega⟩ * Ideal.sin (θ ⟨k.val, h⟩)
  else
    x ⟨k.val - 64, by omega⟩ * Ideal.sin (θ ⟨k.val - 64, by omega⟩) - x ⟨k.val, k.isLt⟩ * Ideal.cos (θ ⟨k.val - 64, by omega⟩)

/-- The message of edge e at column j: the composed source row contracted with the direction's weight
    (edges 0 … 499999 use weight 0, edges 500000 … 999999 weight 1). -/
def msgEntry (xj : (⟨2, ![1000000, 128]⟩ : Shape).Idx → EReal) (rel : (⟨2, ![1000000, 64]⟩ : Shape).Idx → EReal)
    (wst : (⟨3, ![2, 128, 128]⟩ : Shape).Idx → EReal) (e : Fin 1000000) (j : Fin 128) : EReal :=
  ∑ k : Fin 128, rotEntry (fun q => xj (ix2 e q)) (fun q => rel (ix2 e q) * angleUnit) k
    * wst (ix3 (⟨e.val / 500000, by have := e.isLt; omega⟩ : Fin 2) k j)

/-- All edge messages, as one array. -/
def messages (xj : (⟨2, ![1000000, 128]⟩ : Shape).Idx → EReal) (rel : (⟨2, ![1000000, 64]⟩ : Shape).Idx → EReal)
    (wst : (⟨3, ![2, 128, 128]⟩ : Shape).Idx → EReal) : (⟨2, ![1000000, 128]⟩ : Shape).Idx → EReal :=
  fun i => msgEntry xj rel wst (i 0) (i 1)

/-- The self-loop message of entity n at column j: its own row composed with the loop relation's angles,
    contracted with the loop weight. -/
def loopEntry (x : (⟨2, ![100000, 128]⟩ : Shape).Idx → EReal) (lr : (⟨2, ![1, 64]⟩ : Shape).Idx → EReal)
    (w : (⟨2, ![128, 128]⟩ : Shape).Idx → EReal) (n : Fin 100000) (j : Fin 128) : EReal :=
  ∑ k : Fin 128, rotEntry (fun q => x (ix2 n q)) (fun q => lr (ix2 (0 : Fin 1) q) * angleUnit) k * w (ix2 k j)

/-- The entity update: a third of (incoming aggregate + outgoing aggregate + self-loop message). -/
def update (x a b : (⟨2, ![100000, 128]⟩ : Shape).Idx → EReal) (lr : (⟨2, ![1, 64]⟩ : Shape).Idx → EReal)
    (w : (⟨2, ![128, 128]⟩ : Shape).Idx → EReal) : (⟨2, ![100000, 128]⟩ : Shape).Idx → EReal :=
  fun i => ((a i + b i) + loopEntry x lr w (i 0) (i 1)) * third

end Cert.RotConv

end
-- ==== Proof.Algebra.lean ====
/-
  Two facts about the extended reals that join the two programs.

  1. Dividing by the real 16021061/33554432 is multiplying by the angle unit 33554432/16021061, for EVERY extended
     real (no finiteness is needed for the angles).
  2. A real edge weight n moves across the rotation and the contraction: composing the scaled row n·x and contracting
     with a real weight column is n times the contraction of the composed row x.  This is distributivity, so it is
     proved through the reals: every quantity involved is a real number.
-/
import proofs.«178232_j34394098106413_2_alg».proof.Proof.Spec

noncomputable section

namespace Cert.RotConv

open Idealize.ShloMosaic
open scoped BigOperators

/-- The f32 word 0x3EF47645 is the real 16021061/33554432. -/
theorem ofBits_angleDivisor : Ideal.ofBits .f32 0x3EF47645#32 = ((16021061 / 33554432 : ℝ) : EReal) := by
  simp [Ideal.ofBits, Ideal.ieee, -EReal.coe_mul]; norm_num

/-- Division by the reference's divisor is multiplication by the angle unit, on every extended real. -/
theorem div_angleDivisor (r : EReal) : Ideal.div r (Ideal.ofBits .f32 0x3EF47645#32) = r * angleUnit := by
  rw [ofBits_angleDivisor, Ideal.div_coe (by norm_num : (16021061 / 33554432 : ℝ) ≠ 0)]
  unfold angleUnit
  congr 2
  norm_num

/-- The coercion from the reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Cosine and sine of a real are reals. -/
theorem cos_coe (r : ℝ) : Ideal.cos (r : EReal) = ((Real.cos r : ℝ) : EReal) := rfl
theorem sin_coe (r : ℝ) : Ideal.sin (r : EReal) = ((Real.sin r : ℝ) : EReal) := rfl

/-- The composed row of real data is real: its entries are the real rotation formula. -/
def rotReal (x : Fin 128 → ℝ) (θ : Fin 64 → ℝ) (k : Fin 128) : ℝ :=
  if h : k.val < 64 then
    x ⟨k.val, by omega⟩ * Real.cos (θ ⟨k.val, h⟩) + x ⟨k.val + 64, by omega⟩ * Real.sin (θ ⟨k.val, h⟩)
  else
    x ⟨k.val - 64, by omega⟩ * Real.sin (θ ⟨k.val - 64, by omega⟩) - x ⟨k.val, k.isLt⟩ * Real.cos (θ ⟨k.val - 64, by omega⟩)

theorem rotEntry_coe (x : Fin 128 → ℝ) (θ : Fin 64 → ℝ) (k : Fin 128) :
    rotEntry (fun q => (x q : EReal)) (fun q => (θ q : EReal)) k = ((rotReal x θ k : ℝ) : EReal) := by
  unfold rotEntry rotReal
  split
  · simp only [cos_coe, sin_coe, ← EReal.coe_mul, ← EReal.coe_add]
  · simp only [cos_coe, sin_coe, ← EReal.coe_mul, ← EReal.coe_sub]

theorem rotReal_scale (x : Fin 128 → ℝ) (θ : Fin 64 → ℝ) (n : ℝ) (k : Fin 128) :
    rotReal (fun q => x q * n) θ k = rotReal x θ k * n := by
  unfold rotReal
  split <;> ring

/-- A real edge weight moves across the rotation and the contraction. -/
theorem contract_scale (x : Fin 128 → ℝ) (θ : Fin 64 → ℝ) (n : ℝ) (w : Fin 128 → ℝ) :
    ∑ k : Fin 128, rotEntry (fun q => (x q : EReal) * (n : EReal)) (fun q => (θ q : EReal)) k * (w k : EReal)
      = (∑ k : Fin 128, rotEntry (fun q => (x q : EReal)) (fun q => (θ q : EReal)) k * (w k : EReal)) * (n : EReal) := by
  have h1 : ∀ k : Fin 128, rotEntry (fun q => (x q : EReal) * (n : EReal)) (fun q => (θ q : EReal)) k * (w k : EReal)
      = ((rotReal x θ k * n * w k : ℝ) : EReal) := by
    intro k
    have : (fun q => (x q : EReal) * (n : EReal)) = fun q => ((x q * n : ℝ) : EReal) := by
      funext q; rw [EReal.coe_mul]
    rw [this, rotEntry_coe, rotReal_scale, ← EReal.coe_mul]
  have h2 : ∀ k : Fin 128, rotEntry (fun q => (x q : EReal)) (fun q => (θ q : EReal)) k * (w k : EReal)
      = ((rotReal x θ k * w k : ℝ) : EReal) := by
    intro k; rw [rotEntry_coe, ← EReal.coe_mul]
  simp only [h1, h2]
  rw [← coe_sum, ← coe_sum, ← EReal.coe_mul, Finset.sum_mul]
  congr 1
  exact Finset.sum_congr rfl fun k _ => by ring

end Cert.RotConv

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«178232_j34394098106413_2_alg».proof.Proof.LibContract
import proofs.«178232_j34394098106413_2_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.LibColSlice.lean ====
/-
  A block of columns of a matrix read at an index: the unit-stride slice of an [a, b] matrix that keeps every row and
  the c columns from offset o on reads, at (p, e), the matrix at (p, o + e). For any extents and any element type.
-/
import Idealize.ShloMosaic.Lib.Pipeline.Value
import Idealize.ShloMosaic.Lib.ValueIdx

namespace Idealize.ShloMosaic.ValueIdx

variable {α : Type}

/-- A column slice `[a, b] → [a, c]` at offset `o` reads, at `(p, e)`, the operand at row `p` and the column
    `d` whose number is `o + e`. -/
theorem colSlice_apply {a b c : ℕ} (o : ℕ) (x : (⟨2, ![a, b]⟩ : Shape).Idx → α)
    (h : (⟨2, ![a, b]⟩ : Shape).Slices ![0, o] ⟨2, ![a, c]⟩) (p : Fin a) (e : Fin c) (d : Fin b)
    (hd : d.val = o + e.val) :
    extractStridedSlice (⟨2, ![a, c]⟩ : Shape) ![0, o] x h (ix2 p e) = x (ix2 p d) :=
  extractStridedSlice_apply ![0, o] x h (ix2 p e) (ix2 p d) fun ax => by
    match ax with
    | ⟨0, _⟩ => exact (Nat.zero_add p.val).symm
    | ⟨1, _⟩ => exact hd

end Idealize.ShloMosaic.ValueIdx
-- ==== Proof.RefRead.lean ====
/-
  The reference's messages read at an entry.

  The reference composes gathered rows with the angles  rel / (16021061/33554432)  in the host's spelling: two column
  slices of the row block, the cosine and sine of the angle block, the two halves joined along the columns, a
  contraction with the weight, and (for an edge) the product with the edge's weight spread along the row.  At an
  entry (e, j) that is the contraction of the composed row of Cert.RotConv with the weight's column j, the angles
  being  rel · angleUnit.
-/
import proofs.«178232_j34394098106413_2_alg».proof.ReferenceIdeal
import proofs.«178232_j34394098106413_2_alg».proof.Proof.Spec
import proofs.«178232_j34394098106413_2_alg».proof.Proof.Algebra
import proofs.«178232_j34394098106413_2_alg».proof.Proof.LibDenseVec
import proofs.«178232_j34394098106413_2_alg».proof.Proof.LibJoinCols
import proofs.«178232_j34394098106413_2_alg».proof.Proof.LibColSlice
import proofs.«178232_j34394098106413_2_alg».proof.Proof.LibKeepdims
import Idealize.ShloMosaic.Lib.ValueLayout

noncomputable section

namespace Cert.ReferenceIdeal.Messages

open Idealize.ShloMosaic Idealize.ShloMosaic.ValueIdx Cert.ReferenceIdeal Cert.RotConv
open scoped BigOperators

variable [Facts₀]
open Facts₀

/-- The host's spelling of a block of composed rows, at (e, k): entry k of row e composed with row e of the angles. -/
theorem host_rot_apply {n : ℕ} (X : FVec Ideal (⟨2, ![n, 128]⟩ : Shape) .f32) (T : FVec Ideal (⟨2, ![n, 64]⟩ : Shape) .f32)
    (hs0 : (⟨2, ![n, 128]⟩ : Shape).Slices ![0, 0] ⟨2, ![n, 64]⟩) (hs1 : (⟨2, ![n, 128]⟩ : Shape).Slices ![0, 64] ⟨2, ![n, 64]⟩)
    (hc : Shape.Concatenates [(⟨2, ![n, 64]⟩ : Shape), (⟨2, ![n, 64]⟩ : Shape)] (⟨2, ![n, 128]⟩ : Shape) 1)
    (e : Fin n) (k : Fin 128) :
    concatenate (⟨2, ![n, 128]⟩ : Shape) 1
      [⟨(⟨2, ![n, 64]⟩ : Shape), addf (mulf (extractStridedSlice (⟨2, ![n, 64]⟩ : Shape) ![0, 0] X hs0) (Host.cos T))
          (mulf (extractStridedSlice (⟨2, ![n, 64]⟩ : Shape) ![0, 64] X hs1) (Host.sin T))⟩,
       ⟨(⟨2, ![n, 64]⟩ : Shape), subf (mulf (extractStridedSlice (⟨2, ![n, 64]⟩ : Shape) ![0, 0] X hs0) (Host.sin T))
          (mulf (extractStridedSlice (⟨2, ![n, 64]⟩ : Shape) ![0, 64] X hs1) (Host.cos T))⟩] hc (ix2 e k)
      = rotEntry (fun q => X (ix2 e q)) (fun q => T (ix2 e q)) k := by
  unfold rotEntry
  by_cases h : k.val < 64
  · rw [dif_pos h]
    refine (JoinCols.pair_left _ _ hc e (⟨k.val, h⟩ : Fin 64) k rfl).trans ?_
    show extractStridedSlice (⟨2, ![n, 64]⟩ : Shape) ![0, 0] X hs0 (ix2 e ⟨k.val, h⟩) * Ideal.cos (T (ix2 e ⟨k.val, h⟩))
        + extractStridedSlice (⟨2, ![n, 64]⟩ : Shape) ![0, 64] X hs1 (ix2 e ⟨k.val, h⟩) * Ideal.sin (T (ix2 e ⟨k.val, h⟩)) = _
    rw [colSlice_apply 0 X hs0 e (⟨k.val, h⟩ : Fin 64) (⟨k.val, by omega⟩ : Fin 128) (by simp),
      colSlice_apply 64 X hs1 e (⟨k.val, h⟩ : Fin 64) (⟨k.val + 64, by omega⟩ : Fin 128) (by simp [Nat.add_comm])]
  · rw [dif_neg h]
    have hk : k.val - 64 < 64 := by have := k.isLt; omega
    refine (JoinCols.pair_right _ _ hc e (⟨k.val - 64, hk⟩ : Fin 64) k (by show k.val = 64 + (k.val - 64); omega)).trans ?_
    show extractStridedSlice (⟨2, ![n, 64]⟩ : Shape) ![0, 0] X hs0 (ix2 e ⟨k.val - 64, hk⟩) * Ideal.sin (T (ix2 e ⟨k.val - 64, hk⟩))
        - extractStridedSlice (⟨2, ![n, 64]⟩ : Shape) ![0, 64] X hs1 (ix2 e ⟨k.val - 64, hk⟩) * Ideal.cos (T (ix2 e ⟨k.val - 64, hk⟩)) = _
    rw [colSlice_apply 0 X hs0 e (⟨k.val - 64, hk⟩ : Fin 64) (⟨k.val - 64, by omega⟩ : Fin 128) (by simp),
      colSlice_apply 64 X hs1 e (⟨k.val - 64, hk⟩ : Fin 64) (⟨k.val, k.isLt⟩ : Fin 128) (by show k.val = 64 + (k.val - 64); omega)]

/-- The edge contraction's dimension record is a plain [500000,128]·[128,128] product. -/
theorem plain_edge : DenseVec.Plain dot_S500000x128_S128x128_S500000x128_1_0_0_1_n_n :=
  ⟨rfl, fun _ => rfl, rfl, rfl, fun _ _ => rfl, fun _ _ => rfl⟩

/-- The self-loop contraction's dimension record is a plain [100000,128]·[128,128] product. -/
theorem plain_loop : DenseVec.Plain dot_S100000x128_S128x128_S100000x128_1_0_0_1_n_n :=
  ⟨rfl, fun _ => rfl, rfl, rfl, fun _ _ => rfl, fun _ _ => rfl⟩

/-- One direction's weighted messages as the reference spells them, of the gathered entity rows XG, the gathered
    relation rows RG, the direction's weight W and the edge weights N. -/
def edgeMessages (XG : FVec Ideal S500000x128 .f32) (RG : FVec Ideal S500000x64 .f32) (W : FVec Ideal S128x128 .f32)
    (N : FVec Ideal S500000 .f32) : FVec Ideal S500000x128 .f32 :=
  mulf (Host.dotGeneral dot_S500000x128_S128x128_S500000x128_1_0_0_1_n_n none
      (concatenate S500000x128 1
        [⟨S500000x64, addf (mulf (extractStridedSlice S500000x64 ![0, 0] XG slices_S500000x128_S500000x64_0_0)
              (Host.cos (Host.divf RG (broadcastInDim S500000x64 ![] bcast_S_S500000x64 (constant (F := Ideal) S_ .f32 0x3EF47645#32)))))
            (mulf (extractStridedSlice S500000x64 ![0, 64] XG slices_S500000x128_S500000x64_0_64)
              (Host.sin (Host.divf RG (broadcastInDim S500000x64 ![] bcast_S_S500000x64 (constant (F := Ideal) S_ .f32 0x3EF47645#32)))))⟩,
         ⟨S500000x64, subf (mulf (extractStridedSlice S500000x64 ![0, 0] XG slices_S500000x128_S500000x64_0_0)
              (Host.sin (Host.divf RG (broadcastInDim S500000x64 ![] bcast_S_S500000x64 (constant (F := Ideal) S_ .f32 0x3EF47645#32)))))
            (mulf (extractStridedSlice S500000x64 ![0, 64] XG slices_S500000x128_S500000x64_0_64)
              (Host.cos (Host.divf RG (broadcastInDim S500000x64 ![] bcast_S_S500000x64 (constant (F := Ideal) S_ .f32 0x3EF47645#32)))))⟩]
        concatenates_S500000x64_S500000x64_S500000x128_d1) W)
    (broadcastInDim S500000x128 ![0, 1] bcast_S500000x1_S500000x128_0_1 (broadcastInDim S500000x1 ![0] bcast_S500000_S500000x1_0 N))

/-- A weighted message at (e, j): the composed row of edge e contracted with column j, times the edge's weight. -/
theorem edgeMessages_apply (XG : FVec Ideal S500000x128 .f32) (RG : FVec Ideal S500000x64 .f32) (W : FVec Ideal S128x128 .f32)
    (N : FVec Ideal S500000 .f32) (e : Fin 500000) (j : Fin 128) :
    edgeMessages XG RG W N (ix2 e j)
      = (∑ k : Fin 128, rotEntry (fun q => XG (ix2 e q)) (fun q => RG (ix2 e q) * angleUnit) k * W (ix2 k j)) * N (ix1 e) := by
  unfold edgeMessages
  rw [mulf_apply, Keepdims.rows_apply, DenseVec.dotGeneral_ix2 plain_edge]
  congr 1
  refine Finset.sum_congr rfl fun k _ => ?_
  congr 1
  refine (host_rot_apply XG _ slices_S500000x128_S500000x64_0_0 slices_S500000x128_S500000x64_0_64
    concatenates_S500000x64_S500000x64_S500000x128_d1 e k).trans ?_
  congr 1
  funext q
  exact div_angleDivisor (RG (ix2 e q))

/-- A vector of 64 entries laid along every row of a [100000, 64] matrix, at (n, q): its entry q. -/
theorem spread64_apply (v : FVec Ideal S64 .f32) (n : Fin 100000) (q : Fin 64) :
    broadcastInDim S100000x64 ![1] bcast_S64_S100000x64_1 v (ix2 n q) = v (ix1 q) :=
  broadcastInDim_apply _ bcast_S64_S100000x64_1 v (ix2 n q) (ix1 q) (fun a => by
    match a with
    | ⟨0, _⟩ => show q.val = if (64 : Nat) = 1 then 0 else q.val; rw [if_neg (by decide)])

/-- The self-loop messages as the reference spells them, of the entity rows X, the loop relation's 64 entries LV and
    the loop weight Wl. -/
def loopMessages (X : FVec Ideal S100000x128 .f32) (LV : FVec Ideal S64 .f32) (Wl : FVec Ideal S128x128 .f32) :
    FVec Ideal S100000x128 .f32 :=
  Host.dotGeneral dot_S100000x128_S128x128_S100000x128_1_0_0_1_n_n none
    (concatenate S100000x128 1
      [⟨S100000x64, addf (mulf (extractStridedSlice S100000x64 ![0, 0] X slices_S100000x128_S100000x64_0_0)
            (Host.cos (Host.divf (broadcastInDim S100000x64 ![1] bcast_S64_S100000x64_1 LV) (broadcastInDim S100000x64 ![] bcast_S_S100000x64 (constant (F := Ideal) S_ .f32 0x3EF47645#32)))))
          (mulf (extractStridedSlice S100000x64 ![0, 64] X slices_S100000x128_S100000x64_0_64)
            (Host.sin (Host.divf (broadcastInDim S100000x64 ![1] bcast_S64_S100000x64_1 LV) (broadcastInDim S100000x64 ![] bcast_S_S100000x64 (constant (F := Ideal) S_ .f32 0x3EF47645#32)))))⟩,
       ⟨S100000x64, subf (mulf (extractStridedSlice S100000x64 ![0, 0] X slices_S100000x128_S100000x64_0_0)
            (Host.sin (Host.divf (broadcastInDim S100000x64 ![1] bcast_S64_S100000x64_1 LV) (broadcastInDim S100000x64 ![] bcast_S_S100000x64 (constant (F := Ideal) S_ .f32 0x3EF47645#32)))))
          (mulf (extractStridedSlice S100000x64 ![0, 64] X slices_S100000x128_S100000x64_0_64)
            (Host.cos (Host.divf (broadcastInDim S100000x64 ![1] bcast_S64_S100000x64_1 LV) (broadcastInDim S100000x64 ![] bcast_S_S100000x64 (constant (F := Ideal) S_ .f32 0x3EF47645#32)))))⟩]
      concatenates_S100000x64_S100000x64_S100000x128_d1) Wl

/-- A self-loop message at (n, j): entity n's row composed with the loop relation's angles, contracted with column j. -/
theorem loopMessages_apply (X : FVec Ideal S100000x128 .f32) (LV : FVec Ideal S64 .f32) (Wl : FVec Ideal S128x128 .f32)
    (n : Fin 100000) (j : Fin 128) :
    loopMessages X LV Wl (ix2 n j)
      = ∑ k : Fin 128, rotEntry (fun q => X (ix2 n q)) (fun q => LV (ix1 q) * angleUnit) k * Wl (ix2 k j) := by
  unfold loopMessages
  rw [DenseVec.dotGeneral_ix2 plain_loop]
  refine Finset.sum_congr rfl fun k _ => ?_
  congr 1
  refine (host_rot_apply X _ slices_S100000x128_S100000x64_0_0 slices_S100000x128_S100000x64_0_64
    concatenates_S100000x64_S100000x64_S100000x128_d1 n k).trans ?_
  congr 1
  funext q
  show Ideal.div (broadcastInDim S100000x64 ![1] bcast_S64_S100000x64_1 LV (ix2 n q)) (Ideal.ofBits .f32 0x3EF47645#32) = _
  rw [spread64_apply, div_angleDivisor]

/-- The last row of the relation table [rel_embed ; loop_rel], as a vector of 64 entries. -/
def lastRelRow (a3 : FVec Ideal S500x64 .f32) (a8 : FVec Ideal S1x64 .f32) : FVec Ideal S64 .f32 :=
  shapeCast S64 (extractStridedSlice S1x64 ![500, 0]
    (concatenate S501x64 0 [⟨S500x64, a3⟩, ⟨S1x64, a8⟩] concatenates_S500x64_S1x64_S501x64_d0) slices_S501x64_S1x64_500_0) shapeCasts_S1x64_S64

/-- Its entry q is the loop relation's entry q. -/
theorem lastRelRow_apply (a3 : FVec Ideal S500x64 .f32) (a8 : FVec Ideal S1x64 .f32) (q : Fin 64) :
    lastRelRow a3 a8 (ix1 q) = a8 (ix2 (0 : Fin 1) q) := by
  unfold lastRelRow
  rw [shapeCast_1a_a_apply]
  refine (extractStridedSlice_apply ![500, 0] _ slices_S501x64_S1x64_500_0 (ix2 (0 : Fin 1) q) (ix2 (500 : Fin 501) q) (fun a => by
    match a with
    | ⟨0, _⟩ => rfl
    | ⟨1, _⟩ => exact (Nat.zero_add q.val).symm)).trans ?_
  exact concatenate_pair_apply_right 0 a3 a8 concatenates_S500x64_S1x64_S501x64_d0 (ix2 (500 : Fin 501) q) rfl rfl (ix2 (0 : Fin 1) q)
    (fun b hb => match b with | ⟨0, _⟩ => absurd rfl hb | ⟨1, _⟩ => rfl) rfl

end Cert.ReferenceIdeal.Messages

end
-- ==== Proof.LibJoinCongr.lean ====
/-
  Two arrays joined along an axis, as a function of the two arrays.

  A `concatenate` of a two-element list takes, besides the list, the proof that the operands' SHAPES fit the result
  along the axis. That side condition does not mention the operands' contents, so equal operands give equal joins.
  Stated in the form of a congruence rule: with it in scope a simplifier pass rewrites inside the operands of a join,
  which it otherwise leaves untouched because a later argument's type depends on the list.
-/
import Idealize.ShloMosaic.Lib.Pipeline.Value

namespace Idealize.ShloMosaic.JoinCongr

open Idealize.ShloMosaic

/-- A join of two arrays depends only on the two arrays. -/
theorem concatenate_pair_congr {α : Type} {t s1 s2 : Shape} (a : Fin t.rank) {x x' : s1.Idx → α} {y y' : s2.Idx → α}
    (h : Shape.Concatenates [s1, s2] t a) (hx : x = x') (hy : y = y') :
    concatenate t a [⟨s1, x⟩, ⟨s2, y⟩] h = concatenate t a [⟨s1, x'⟩, ⟨s2, y'⟩] h := by
  subst hx; subst hy; rfl

end Idealize.ShloMosaic.JoinCongr
-- ==== Proof.RefValue.lean ====
/-
  The reference's run, with its two results named as functions of the argument arrays.

  The reference is a straight line of 224 host operations. Per direction, the edges' source rows are gathered,
  composed with the gathered relation rows' angles, contracted with the direction's weight, scaled by the edge weight
  (the inverse square root of the degree at the target times that at the source) and added into a zero table at the
  targets; the self-loop message of every entity is added to the two aggregates and the sum is scaled by a third. The
  second result is the relation table times the relation weight, without its last row. Every execution ends with the
  two result buffers at these functions of the launch memory and with the arguments as launched.
-/
import proofs.«178232_j34394098106413_2_alg».proof.Proof.RefOps
import proofs.«178232_j34394098106413_2_alg».proof.Proof.HostTerms
import proofs.«178232_j34394098106413_2_alg».proof.Proof.RefRead
import proofs.«178232_j34394098106413_2_alg».proof.Proof.LibJoinCongr
import Idealize.ShloMosaic.Lib.StableHlo.Run

noncomputable section

namespace Cert.ReferenceIdeal.RefValue

open Cert.ReferenceIdeal Cert.ReferenceIdeal.Gen Cert.ReferenceIdeal.ValueP Idealize.ShloMosaic Idealize.ShloMosaic.TcCoe
  Idealize.SL.Sem Idealize.ShloMosaic.StableHlo
open Cert.KernelIdeal.HostTerms Cert.ReferenceIdeal.Messages

variable [Cert.KernelIdeal.Facts₀]

/-- The entity result: a third of (first direction's aggregate + second direction's aggregate + self-loop messages). -/
def refOut (X : FVec Ideal S100000x128 .f32) (E : IVec S2x1000000 32) (T : IVec S1000000 32)
    (a3 : FVec Ideal S500x64 .f32) (a4 a5 a6 : FVec Ideal S128x128 .f32) (a8 : FVec Ideal S1x64 .f32) :
    FVec Ideal S100000x128 .f32 :=
  mulf (addf (addf
      (aggregate (firstHalf E) (edgeMessages (gatheredRows X (firstHalf E)) (gatheredRel (relTable a3 a8) (firstTypes T)) a5
        (edgeWeight (invSqrt (degree (firstHalf E))) (firstHalf E))))
      (aggregate (secondHalf E) (edgeMessages (gatheredRows X (secondHalf E)) (gatheredRel (relTable a3 a8) (secondTypes T)) a6
        (edgeWeight (invSqrt (degree (secondHalf E))) (secondHalf E)))))
      (loopMessages X (lastRelRow a3 a8) a4))
    (broadcastInDim S100000x128 ![] bcast_S_S100000x128 (constant (F := Ideal) S_ .f32 0x3EAAAAAB#32))

/-- The relation result: the relation table times the relation weight, without its last row. -/
def refRel (a3 : FVec Ideal S500x64 .f32) (a7 : FVec Ideal S64x64 .f32) (a8 : FVec Ideal S1x64 .f32) :
    FVec Ideal S500x64 .f32 :=
  extractStridedSlice S500x64 ![0, 0]
    (Host.dotGeneral (F := Ideal) (φ₁ := .f32) (φ₂ := .f32) dot_S501x64_S64x64_S501x64_1_0_0_1_n_n none (relTable a3 a8) a7)
    slices_S501x64_S500x64_0_0

attribute [local congr] Idealize.ShloMosaic.JoinCongr.concatenate_pair_congr

set_option maxRecDepth 8192 in
set_option maxHeartbeats 89600000 in
/-- The fold of the 224 operations over the launch memory, read at the entity result. -/
theorem out_after (m : (ℓ : Loc nD τ sig) → Buf (Elt Ideal) ℓ) (c : Dev nD) :
    after (ops (F := Ideal)) (launchContents m c) (Proc.devRef .tc main_v177)
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg8)) := by
  after_results_simp
  simp only [cast_eq, id_eq]
  unfold refOut aggregate edgeMessages loopMessages lastRelRow gatheredRows gatheredRel edgeWeight invSqrt degree
    relTable zeroTable splat100k signedIndex signedType targetRow sourceRow firstHalf secondHalf firstTypes secondTypes
  rfl

set_option maxRecDepth 8192 in
set_option maxHeartbeats 89600000 in
/-- The same fold read at the relation result. -/
theorem rel_after (m : (ℓ : Loc nD τ sig) → Buf (Elt Ideal) ℓ) (c : Dev nD) :
    after (ops (F := Ideal)) (launchContents m c) (Proc.devRef .tc main_v179)
      = refRel (m ((c.tc : Thread nD τ).loc main_arg3)) (m ((c.tc : Thread nD τ).loc main_arg7)) (m ((c.tc : Thread nD τ).loc main_arg8)) := by
  after_results_simp
  unfold refRel relTable
  rfl

set_option maxRecDepth 8192 in
set_option maxHeartbeats 89600000 in
/-- On every device, from any memory with zero counters: every weakly fair execution of the reference's @main
    terminates with the entity result at `refOut` and the relation result at `refRel` of the launch memory, and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v177)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg8))
      ∧ r.2.mem ((c.tc : Thread nD τ).loc main_v179)
          = refRel (m ((c.tc : Thread nD τ).loc main_arg3)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v177).trans (out_after m c),
      (h c main_v179).trans (rel_after m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RefValue

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.FiniteInputs.lean ====
/-
  The precondition, decoded: every entry of every float input is a real number.

  The precondition says, for each of the seven float inputs x, that the conjunction over all entries of the comparison
  |x| < +∞ holds, and that the seven conjunctions hold together.  A conjunction of bits that is 1 has every bit 1; a
  conjunction over all entries that is 1 has the comparison true at every entry; and an extended real whose absolute
  value is below +∞ is neither infinity, hence a real.  The two integer inputs are not constrained.
-/
import proofs.«178232_j34394098106413_2_alg».proof.Defs
import proofs.«178232_j34394098106413_2_alg».proof.Proof.LibFiniteEntry
import Idealize.ShloMosaic.Lib.ReduceAll
import Idealize.ShloMosaic.Lib.ValueIdx

noncomputable section

namespace Cert.RotConv.FiniteInputs

open Idealize.ShloMosaic Idealize.SL.Sem
open Cert.Pre_finite_inputs

/-- The rank-0 shape has one index. -/
instance : Subsingleton S_.Idx := ⟨fun a b => funext fun d => d.elim0⟩

/-- One "all entries finite": if the conjunction over all entries of |x| < +∞ is 1, every entry of x is a real. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1)
    (i : s.Idx) : ∃ r : ℝ, x i = (r : EReal) :=
  FiniteEntry.real_of_abs_lt_inf (x i) (Host.reduce_andi_all _ _ hr hu j e i)

/-- The precondition's function is 1 only if every entry of each of the seven float arrays is a real. -/
theorem real_of_fn [hP : Cert.Pre_finite_inputs.Facts]
    (x0 : FVec Ideal S100000x128 .f32) (x1 : IVec S2x1000000 32) (x2 : IVec S1000000 32)
    (x3 : FVec Ideal S500x64 .f32) (x4 : FVec Ideal S128x128 .f32) (x5 : FVec Ideal S128x128 .f32)
    (x6 : FVec Ideal S128x128 .f32) (x7 : FVec Ideal S64x64 .f32) (x8 : FVec Ideal S1x64 .f32)
    (h : Cert.Pre_finite_inputs.fn (F := Ideal) x0 x1 x2 x3 x4 x5 x6 x7 x8 = (fun _ => 1#1)) :
    (∀ i, ∃ r : ℝ, x0 i = (r : EReal)) ∧ (∀ i, ∃ r : ℝ, x3 i = (r : EReal)) ∧ (∀ i, ∃ r : ℝ, x4 i = (r : EReal))
    ∧ (∀ i, ∃ r : ℝ, x5 i = (r : EReal)) ∧ (∀ i, ∃ r : ℝ, x6 i = (r : EReal)) ∧ (∀ i, ∃ r : ℝ, x7 i = (r : EReal))
    ∧ (∀ i, ∃ r : ℝ, x8 i = (r : EReal)) := by
  have e := congrFun h ValueIdx.ix0
  dsimp only [Cert.Pre_finite_inputs.fn, Cert.Pre_finite_inputs.fn_part1, andi] at e
  simp only [IntOp.andi_eq_one] at e
  obtain ⟨⟨⟨⟨⟨⟨h0, h3⟩, h4⟩, h5⟩, h6⟩, h7⟩, h8⟩ := e
  exact ⟨all_real x0 _ _ _ _ h0, all_real x3 _ _ _ _ h3, all_real x4 _ _ _ _ h4, all_real x5 _ _ _ _ h5,
    all_real x6 _ _ _ _ h6, all_real x7 _ _ _ _ h7, all_real x8 _ _ _ _ h8⟩

/-- Under the kernel's precondition, on every device, every entry of each float argument array is a real. -/
theorem real_inputs [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal)) :=
  real_of_fn _ _ _ _ _ _ _ _ _ (h c)

end Cert.RotConv.FiniteInputs

end
-- ==== Proof.Region0.lean ====
/-
  The message region of the idealized kernel, read as one function of its three input arrays.

  The region runs over 250 grid points.  At point t it holds rows 4000·t … 4000·t + 3999 of the entity-row array
  (128 columns, read as 64 complex numbers: real parts in columns 0 … 63, imaginary parts in columns 64 … 127) and of
  the relation array (64 columns), and the weight t / 125 of a stack of two 128×128 weights.  A row's relation entries
  times the angle unit are its angles θ; the row is composed with them — column k < 64 becomes re_k·cos θ_k + im_k·sin θ_k,
  column k ≥ 64 becomes re_q·sin θ_q − im_q·cos θ_q with q = k − 64 — and the composed row is contracted with the weight.
  On the extended reals every operation is exact and the format changes are the identity, so entry (p, j) of what the
  point leaves is ∑ k, (composed row p)_k · w (k, j).  The 250 blocks of 4000 rows cover the million rows of the output,
  and rows below 500000 meet weight 0, the others weight 1, because (4000·t + p) / 500000 = t / 125; so the output
  array after the region is the message function of the specification at every index.
-/
import proofs.«178232_j34394098106413_2_alg».proof.Proof.Gen.KernelIdeal.Frame
import proofs.«178232_j34394098106413_2_alg».proof.Proof.Spec
import proofs.«178232_j34394098106413_2_alg».proof.Proof.LibDenseVec
import proofs.«178232_j34394098106413_2_alg».proof.Proof.LibJoinCols
import proofs.«178232_j34394098106413_2_alg».proof.Proof.LibColSlice
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The product's dimension record contracts the left operand's second axis with the right operand's first. -/
theorem plain_dot : DenseVec.Plain dot_S4000x128_S128x128_S4000x128_1_0_0_1_n_n where
  rank := rfl
  size := fun _ => rfl
  lhs := rfl
  rhs := rfl
  row := fun j q => rfl
  col := fun j q => rfl

/-- The named scale of the angles is the angle unit. -/
theorem unit_eq : Named.named (F := Ideal) κ "inv_angle_unit" (φ := .f32) 0x40060A92#32 = Cert.RotConv.angleUnit :=
  IdealRules.named_const.ideal_named_scalar _ _ _ _ rfl

/-- The left 64 columns of a row block, at (p, a): the block at (p, a). -/
theorem left_apply (x0 : Vec Ideal S4000x128 .bf16) (p : Fin 4000) (a : Fin 64) :
    extractStridedSlice S4000x64 ![0, 0] (shapeCast S4000x128 x0 shapeCasts_S4000x128_S4000x128) slices_S4000x128_o0_0_S4000x64 (ix2 p a)
      = x0 (ix2 p ⟨a.val, by omega⟩) := by
  rw [shapeCast_self]
  exact colSlice_apply 0 x0 _ p a ⟨a.val, by omega⟩ (Nat.zero_add _).symm

/-- The right 64 columns of a row block, at (p, a): the block at (p, a + 64). -/
theorem right_apply (x0 : Vec Ideal S4000x128 .bf16) (p : Fin 4000) (a : Fin 64) :
    extractStridedSlice S4000x64 ![0, 64] (shapeCast S4000x128 x0 shapeCasts_S4000x128_S4000x128) slices_S4000x128_o0_64_S4000x64 (ix2 p a)
      = x0 (ix2 p ⟨a.val + 64, by omega⟩) := by
  rw [shapeCast_self]
  exact colSlice_apply 64 x0 _ p a ⟨a.val + 64, by omega⟩ (Nat.add_comm _ _)

/-- The angles of a row block: the second block's entries times the angle unit. -/
theorem angle_apply (x1 : Vec Ideal S4000x64 .f32) (p : Fin 4000) (a : Fin 64) :
    mulf (shapeCast S4000x64 x1 shapeCasts_S4000x64_S4000x64)
        (broadcast S4000x64 (Named.named (F := Ideal) κ "inv_angle_unit" (φ := .f32) 0x40060A92#32)) (ix2 p a)
      = x1 (ix2 p a) * Cert.RotConv.angleUnit := by
  rw [shapeCast_self]
  exact congrArg (x1 (ix2 p a) * ·) unit_eq

/-- Two half-rows composed with a cosine and a sine vector and joined along the columns, at (p, k):
    column k < 64 reads re·cos + im·sin at k, column k ≥ 64 reads re·sin − im·cos at k − 64. -/
theorem joined_apply (re im c s : FVec Ideal S4000x64 .f32) (p : Fin 4000) (k : Fin 128) :
    concatenate S4000x128 1 [⟨S4000x64, addf (mulf re c) (mulf im s)⟩, ⟨S4000x64, subf (mulf re s) (mulf im c)⟩]
        concatenates_S4000x64_S4000x64_S4000x128_d1 (ix2 p k)
      = if h : k.val < 64 then
          re (ix2 p ⟨k.val, h⟩) * c (ix2 p ⟨k.val, h⟩) + im (ix2 p ⟨k.val, h⟩) * s (ix2 p ⟨k.val, h⟩)
        else
          re (ix2 p ⟨k.val - 64, by omega⟩) * s (ix2 p ⟨k.val - 64, by omega⟩)
            - im (ix2 p ⟨k.val - 64, by omega⟩) * c (ix2 p ⟨k.val - 64, by omega⟩) := by
  by_cases h : k.val < 64
  · rw [dif_pos h]
    exact JoinCols.pair_left _ _ _ p ⟨k.val, h⟩ k rfl
  · rw [dif_neg h]
    exact JoinCols.pair_right _ _ _ p ⟨k.val - 64, by omega⟩ k (by show k.val = 64 + (k.val - 64); omega)

/-- THE PAYLOAD AT AN ENTRY: row p of the first block composed with the angles of row p of the second block,
    contracted with the weight block. -/
theorem pay_apply (x0 : Vec Ideal S4000x128 .bf16) (x1 : Vec Ideal S4000x64 .f32) (x2 : Vec Ideal S1x128x128 .f32)
    (p : Fin 4000) (j : Fin 128) :
    k0_pay1 (F := Ideal) x0 x1 x2 (ix2 p j)
      = ∑ k : Fin 128, Cert.RotConv.rotEntry (fun q => x0 (ix2 p q)) (fun q => x1 (ix2 p q) * Cert.RotConv.angleUnit) k
          * x2 (ix3 (0 : Fin 1) k j) := by
  unfold k0_pay1
  refine (DenseVec.matmul_zero_ix2 plain_dot none _ _ p j).trans ?_
  refine Finset.sum_congr rfl fun k _ => ?_
  refine congrArg₂ (· * ·) ?_ ?_
  · refine (joined_apply _ _ _ _ p k).trans ?_
    unfold Cert.RotConv.rotEntry
    by_cases h : k.val < 64
    · rw [dif_pos h, dif_pos h]
      exact congrArg₂ (· + ·)
        (congrArg₂ (· * ·) (left_apply x0 p ⟨k.val, h⟩) (congrArg Ideal.cos (angle_apply x1 p ⟨k.val, h⟩)))
        (congrArg₂ (· * ·) (right_apply x0 p ⟨k.val, h⟩) (congrArg Ideal.sin (angle_apply x1 p ⟨k.val, h⟩)))
    · rw [dif_neg h, dif_neg h]
      refine congrArg₂ (· - ·)
        (congrArg₂ (· * ·) (left_apply x0 p ⟨k.val - 64, by omega⟩) (congrArg Ideal.sin (angle_apply x1 p ⟨k.val - 64, by omega⟩)))
        (congrArg₂ (· * ·) ((right_apply x0 p ⟨k.val - 64, by omega⟩).trans ?_) (congrArg Ideal.cos (angle_apply x1 p ⟨k.val - 64, by omega⟩)))
      exact congrArg (fun q => x0 (ix2 p q)) (Fin.ext (by show k.val - 64 + 64 = k.val; omega))
  · exact shapeCast_1ab_ab_apply x2 _ k j

/-! ## From the blocks to the array -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 250 grid points: the row windows sit at block t, the weight window at
    block t / 125. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 125 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

theorem point_lt (t : Fin cfg0.N) : t.val < 250 := lt_of_lt_of_eq t.isLt N_0

variable (V : (c : Dev nD) → (b : Ref sig .tc) → Buf (Elt Ideal) ((c : Thread nD τ).loc b))

/-- Row p of the block of the first array at point t is row 4000·t + p of the array. -/
theorem blk0_apply (c : Dev nD) (t : Fin cfg0.N) (p : Fin 4000) (q : Fin 128) :
    iblk0 (F := Ideal) V c 0 t (ix2 p q)
      = (V c main_v117 : S1000000x128.Idx → EReal) (ix2 ⟨t.val * 4000 + p.val, by have := point_lt t; omega⟩ q) := by
  obtain ⟨e0, e1, -⟩ := idx_facts t
  show V c main_v117 (((cfg0.win 0).blk t).view.emb (ix2 p q)) = _
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * q.val = q.val; omega

/-- Row p of the block of the second array at point t is row 4000·t + p of the array. -/
theorem blk1_apply (c : Dev nD) (t : Fin cfg0.N) (p : Fin 4000) (a : Fin 64) :
    iblk0 (F := Ideal) V c 1 t (ix2 p a)
      = (V c main_v118 : S1000000x64.Idx → EReal) (ix2 ⟨t.val * 4000 + p.val, by have := point_lt t; omega⟩ a) := by
  obtain ⟨-, -, e0, e1, -⟩ := idx_facts t
  show V c main_v118 (((cfg0.win 1).blk t).view.emb (ix2 p a)) = _
  refine congrArg _ (funext fun b => Fin.ext ?_)
  match b with
  | ⟨0, _⟩ => show win0_1.index t (0 : Fin 2) * 4000 + 1 * p.val = t.val * 4000 + p.val; omega
  | ⟨1, _⟩ => show win0_1.index t (1 : Fin 2) * 64 + 1 * a.val = a.val; omega

/-- The weight block at point t is weight t / 125 of the stack. -/
theorem blk2_apply (c : Dev nD) (t : Fin cfg0.N) (k j : Fin 128) :
    iblk0 (F := Ideal) V c 2 t (ix3 (0 : Fin 1) k j)
      = (V c main_v121 : S2x128x128.Idx → EReal) (ix3 ⟨t.val / 125, by have := point_lt t; omega⟩ k j) := by
  obtain ⟨-, -, -, -, e0, e1, e2, -⟩ := idx_facts t
  show V c main_v121 (((cfg0.win 2).blk t).view.emb (ix3 (0 : Fin 1) k j)) = _
  refine congrArg _ (funext fun b => Fin.ext ?_)
  match b with
  | ⟨0, _⟩ => show win0_2.index t (0 : Fin 3) * 1 + 1 * 0 = t.val / 125; omega
  | ⟨1, _⟩ => show win0_2.index t (1 : Fin 3) * 128 + 1 * k.val = k.val; omega
  | ⟨2, _⟩ => show win0_2.index t (2 : Fin 3) * 128 + 1 * j.val = j.val; omega

/-- Entry (p, q) of the output block at point t sits at row 4000·t + p, column q of the output array. -/
theorem emb3 (t : Fin cfg0.N) (p : Fin 4000) (q : Fin 128) :
    ((cfg0.win 3).blk t).view.emb (ix2 p q)
      = (ix2 ⟨t.val * 4000 + p.val, by have := point_lt t; omega⟩ q : S1000000x128.Idx) := by
  obtain ⟨-, -, -, -, -, -, -, e0, e1⟩ := idx_facts t
  refine funext fun a => Fin.ext ?_
  match a with
  | ⟨0, _⟩ => show win0_3.index t (0 : Fin 2) * 4000 + 1 * p.val = t.val * 4000 + p.val; omega
  | ⟨1, _⟩ => show win0_3.index t (1 : Fin 2) * 128 + 1 * q.val = q.val; omega

/-- WHAT POINT t WRITES BACK is block t of the message array of the three input arrays as the region finds them. -/
theorem flushed_eq (c : Dev nD) (t : Fin cfg0.N) :
    (dat0 (F := Ideal) V c).flushed 3 t
      = ((cfg0.win 3).blk t).view.read (Elt Ideal)
          (Cert.RotConv.messages (V c main_v117) (V c main_v118) (V c main_v121)) := by
  show (cfg0.win 3).cut (grid0.coords t) ((dat0 V c).after 3 t) = _
  rw [after0_3]
  unfold out0_3
  rw [View.canon_unit_zero hz2]
  simp only [View.ld_unit_zero (S := S4000x128) hz2, View.ld_unit_zero (S := S4000x64) hz2,
    View.ld_unit_zero (S := S1x128x128) hz3]
  funext y
  obtain ⟨p, q, rfl⟩ : ∃ (p : Fin 4000) (q : Fin 128), y = ix2 p q := ⟨y 0, y 1, eq_ix2 y⟩
  refine (pay_apply (iblk0 V c 0 t) (iblk0 V c 1 t) (iblk0 V c 2 t) p q).trans ?_
  refine Eq.trans ?_ (congrArg (Cert.RotConv.messages (V c main_v117) (V c main_v118) (V c main_v121)) (emb3 t p q)).symm
  show _ = Cert.RotConv.msgEntry (V c main_v117) (V c main_v118) (V c main_v121)
    ⟨t.val * 4000 + p.val, by have := point_lt t; omega⟩ q
  unfold Cert.RotConv.msgEntry
  refine Finset.sum_congr rfl fun k _ => ?_
  refine congrArg₂ (· * ·) ?_ ?_
  · exact congrArg₂ (fun x θ => Cert.RotConv.rotEntry x θ k)
      (funext fun q' => blk0_apply V c t p q')
      (funext fun a => congrArg (· * Cert.RotConv.angleUnit) (blk1_apply V c t p a))
  · refine (blk2_apply V c t k q).trans ?_
    refine congrArg (fun r => (V c main_v121 : S2x128x128.Idx → EReal) (ix3 r k q)) (Fin.ext ?_)
    have := point_lt t
    show t.val / 125 = (t.val * 4000 + p.val) / 500000
    omega

/-- An index of the output array is in point t's block iff each coordinate is in the block's range on its axis. -/
theorem mem_blk (t : Fin cfg0.N) (i : S1000000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v122).slice (win0_3.rect t)).set ↔ _
  rw [View.set_slice_whole, Rect.mem_set_unit]
  exact Iff.rfl

/-- Every index of the output array is in the block of the point its row falls in: row r is in block r / 4000. -/
theorem cover (i : S1000000x128.Idx) :
    ∃ t : Fin cfg0.N, (cfg0.win 3).flush t = true ∧ i ∈ ((cfg0.win 3).blk t).view.set := by
  have hi0 : (i 0).val < 1000000 := (i 0).isLt
  have hi1 : (i 1).val < 128 := (i 1).isLt
  have hN : (i 0).val / 4000 < cfg0.N := lt_of_lt_of_eq (by omega : (i 0).val / 4000 < 250) N_0.symm
  refine ⟨⟨(i 0).val / 4000, hN⟩, flush0_3 _, ?_⟩
  rw [mem_blk]
  obtain ⟨-, -, -, -, -, -, -, e0, e1⟩ := idx_facts ⟨(i 0).val / 4000, hN⟩
  intro a
  match a with
  | ⟨0, _⟩ =>
    show win0_3.index ⟨(i 0).val / 4000, hN⟩ (0 : Fin 2) * 4000 ≤ (i 0).val
      ∧ (i 0).val < win0_3.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_3.index ⟨(i 0).val / 4000, hN⟩ (1 : Fin 2) * 128 ≤ (i 1).val
      ∧ (i 1).val < win0_3.index ⟨(i 0).val / 4000, hN⟩ (1 : Fin 2) * 128 + 128
    rw [e1]; omega

/-- THE MESSAGE ARRAY after the region: the 250 blocks of 4000 rows cover it, so it is the message function of
    the three input arrays as the region finds them, at every index. -/
theorem messages_eq (c : Dev nD) :
    (dat0 (F := Ideal) V c).arrAt 3 cfg0.N = Cert.RotConv.messages (V c main_v117) (V c main_v118) (V c main_v121) :=
  (dat0 V c).arrAt_eq_of_cover 3 _ (fun t _ => flushed_eq V c t) cover

end Cert.KernelIdeal.Region0
end
-- ==== Proof.Region1.lean ====
/-
  The update region's result array is the entity update.

  The region runs on 25 blocks of 4000 rows. At a block, the body composes each row of the entity block with the 64
  angles of the loop relation row (each relation entry times the angle unit), contracts the composed row with the
  128×128 loop weight, adds the two aggregate blocks, and takes a third. Read at a row and a column this is the
  update's formula at that row of the whole arrays; the 25 blocks cover all 100000 rows, so the array after the
  region is the update everywhere.
-/
import proofs.«178232_j34394098106413_2_alg».proof.Proof.Gen.KernelIdeal.Frame
import proofs.«178232_j34394098106413_2_alg».proof.Proof.Spec
import proofs.«178232_j34394098106413_2_alg».proof.Proof.LibContract
import proofs.«178232_j34394098106413_2_alg».proof.Proof.LibJoinCols
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.KernelIdeal.Region1

open Idealize.ShloMosaic Idealize.ShloMosaic.ValueIdx Idealize.ShloMosaic.TcCoe Idealize.SL.Sem
open Idealize.ShloMosaic.Pipeline (Dat)
open Cert.KernelIdeal Cert.KernelIdeal.Gen
open scoped BigOperators

/-! ## The body's arithmetic at a row and a column -/

/-- The named constant is the angle unit. -/
theorem named_angleUnit :
    Named.named (F := Ideal) Cert.KernelIdeal.κ "inv_angle_unit" (φ := .f32) 0x40060A92#32 = Cert.RotConv.angleUnit :=
  IdealRules.named_const.ideal_named_scalar _ _ _ _ rfl

/-- The angles of the relation row: each entry times the angle unit. -/
def angles (x3 : Vec Ideal S1x64 .f32) : FVec Ideal S1x64 .f32 :=
  mulf x3 (broadcast S1x64 (Named.named Cert.KernelIdeal.κ "inv_angle_unit" 0x40060A92#32))

theorem angles_apply (x3 : Vec Ideal S1x64 .f32) (q : Fin 64) :
    angles x3 (ix2 (0 : Fin 1) q) = x3 (ix2 (0 : Fin 1) q) * Cert.RotConv.angleUnit := by
  show x3 (ix2 (0 : Fin 1) q) * Named.named (F := Ideal) Cert.KernelIdeal.κ "inv_angle_unit" (φ := .f32) 0x40060A92#32 = _
  rw [named_angleUnit]

/-- The cosines of the angles laid over the 4000 rows. -/
def cosRows (x3 : Vec Ideal S1x64 .f32) : FVec Ideal S4000x64 .f32 :=
  broadcastTo S4000x64 (shapeCast S1x64 (cos (angles x3)) shapeCasts_S1x64_S1x64) broadcasts_S1x64_S4000x64

/-- The sines of the angles laid over the 4000 rows. -/
def sinRows (x3 : Vec Ideal S1x64 .f32) : FVec Ideal S4000x64 .f32 :=
  broadcastTo S4000x64 (shapeCast S1x64 (sin (angles x3)) shapeCasts_S1x64_S1x64) broadcasts_S1x64_S4000x64

theorem cosRows_apply (x3 : Vec Ideal S1x64 .f32) (p : Fin 4000) (q : Fin 64) :
    cosRows x3 (ix2 p q) = Ideal.cos (x3 (ix2 (0 : Fin 1) q) * Cert.RotConv.angleUnit) := by
  unfold cosRows
  rw [shapeCast_self]
  refine (broadcastTo_1b_ab_apply (cos (angles x3)) broadcasts_S1x64_S4000x64 p q).trans ?_
  show Ideal.cos (angles x3 (ix2 (0 : Fin 1) q)) = _
  rw [angles_apply]

theorem sinRows_apply (x3 : Vec Ideal S1x64 .f32) (p : Fin 4000) (q : Fin 64) :
    sinRows x3 (ix2 p q) = Ideal.sin (x3 (ix2 (0 : Fin 1) q) * Cert.RotConv.angleUnit) := by
  unfold sinRows
  rw [shapeCast_self]
  refine (broadcastTo_1b_ab_apply (sin (angles x3)) broadcasts_S1x64_S4000x64 p q).trans ?_
  show Ideal.sin (angles x3 (ix2 (0 : Fin 1) q)) = _
  rw [angles_apply]

/-- The left 64 columns of the entity block (the real parts) and the right 64 (the imaginary parts). -/
def reCols (x0 : Vec Ideal S4000x128 .f32) : FVec Ideal S4000x64 .f32 :=
  extractStridedSlice S4000x64 ![0, 0] x0 slices_S4000x128_o0_0_S4000x64
def imCols (x0 : Vec Ideal S4000x128 .f32) : FVec Ideal S4000x64 .f32 :=
  extractStridedSlice S4000x64 ![0, 64] x0 slices_S4000x128_o0_64_S4000x64

theorem reCols_apply (x0 : Vec Ideal S4000x128 .f32) (p : Fin 4000) (q : Fin 64) :
    reCols x0 (ix2 p q) = x0 (ix2 p (⟨q.val, by omega⟩ : Fin 128)) :=
  slice2_axis1_apply 0 x0 slices_S4000x128_o0_0_S4000x64 p q ⟨q.val, by omega⟩ (Nat.zero_add _).symm

theorem imCols_apply (x0 : Vec Ideal S4000x128 .f32) (p : Fin 4000) (q : Fin 64) :
    imCols x0 (ix2 p q) = x0 (ix2 p (⟨q.val + 64, by omega⟩ : Fin 128)) :=
  slice2_axis1_apply 64 x0 slices_S4000x128_o0_64_S4000x64 p q ⟨q.val + 64, by omega⟩ (Nat.add_comm _ _)

/-- The composed block: [re·cos + im·sin | re·sin − im·cos]. -/
def rotBlock (x0 : Vec Ideal S4000x128 .f32) (x3 : Vec Ideal S1x64 .f32) : FVec Ideal S4000x128 .f32 :=
  concatenate S4000x128 1
    [⟨S4000x64, addf (mulf (reCols x0) (cosRows x3)) (mulf (imCols x0) (sinRows x3))⟩,
     ⟨S4000x64, subf (mulf (reCols x0) (sinRows x3)) (mulf (imCols x0) (cosRows x3))⟩]
    concatenates_S4000x64_S4000x64_S4000x128_d1

/-- A row of the composed block is the row composed with the angles. -/
theorem rotBlock_apply (x0 : Vec Ideal S4000x128 .f32) (x3 : Vec Ideal S1x64 .f32) (p : Fin 4000) (k : Fin 128) :
    rotBlock x0 x3 (ix2 p k)
      = Cert.RotConv.rotEntry (fun q => x0 (ix2 p q)) (fun q => x3 (ix2 (0 : Fin 1) q) * Cert.RotConv.angleUnit) k := by
  unfold rotBlock Cert.RotConv.rotEntry
  by_cases h : k.val < 64
  · rw [dif_pos h]
    refine (JoinCols.pair_left _ _ concatenates_S4000x64_S4000x64_S4000x128_d1 p (⟨k.val, h⟩ : Fin 64) k rfl).trans ?_
    show reCols x0 (ix2 p ⟨k.val, h⟩) * cosRows x3 (ix2 p ⟨k.val, h⟩) + imCols x0 (ix2 p ⟨k.val, h⟩) * sinRows x3 (ix2 p ⟨k.val, h⟩) = _
    rw [reCols_apply, imCols_apply, cosRows_apply, sinRows_apply]
  · rw [dif_neg h]
    have hk := k.isLt
    refine (JoinCols.pair_right _ _ concatenates_S4000x64_S4000x64_S4000x128_d1 p (⟨k.val - 64, by omega⟩ : Fin 64) k (by show k.val = 64 + (k.val - 64); omega)).trans ?_
    show reCols x0 (ix2 p ⟨k.val - 64, _⟩) * sinRows x3 (ix2 p ⟨k.val - 64, _⟩) - imCols x0 (ix2 p ⟨k.val - 64, _⟩) * cosRows x3 (ix2 p ⟨k.val - 64, _⟩) = _
    rw [reCols_apply, imCols_apply, cosRows_apply, sinRows_apply]
    have e : (⟨k.val - 64 + 64, by omega⟩ : Fin 128) = ⟨k.val, k.isLt⟩ := Fin.ext (by show k.val - 64 + 64 = k.val; omega)
    rw [e]

/-- The contraction of the composed block with the weight, at a row and a column. -/
theorem product_apply (r : FVec Ideal S4000x128 .bf16) (w : FVec Ideal S128x128 .bf16) (p : Fin 4000) (j : Fin 128) :
    matmul dot_S4000x128_S128x128_S4000x128_1_0_0_1_n_n none r w (constant (F := Ideal) S4000x128 .f32 0x00000000#32) (ix2 p j)
      = ∑ k : Fin 128, r (ix2 p k) * w (ix2 k j) :=
  (Ideal.matmul_constant_zero_apply dot_S4000x128_S128x128_S4000x128_1_0_0_1_n_n none r w (ix2 p j)).trans
    (Contract2.sum_contr_eq_sum_fin (M := EReal) dot_S4000x128_S128x128_S4000x128_1_0_0_1_n_n rfl rfl rfl rfl
      (fun _ _ => rfl) (fun _ _ => rfl) r w (ix2 p j))

/-- The body's payload in the names above. -/
theorem pay_eq (x0 : Vec Ideal S4000x128 .f32) (x3 : Vec Ideal S1x64 .f32) (x4 : Vec Ideal S128x128 .f32)
    (x1 x2 : Vec Ideal S4000x128 .f32) :
    k1_pay1 (F := Ideal) x0 x3 x4 x1 x2
      = mulf (addf (addf (shapeCast S4000x128 x1 shapeCasts_S4000x128_S4000x128) (shapeCast S4000x128 x2 shapeCasts_S4000x128_S4000x128))
          (matmul dot_S4000x128_S128x128_S4000x128_1_0_0_1_n_n none (truncf .bf16 (rotBlock x0 x3) bitsLt_bf16_f32)
            (truncf .bf16 x4 bitsLt_bf16_f32) (constant S4000x128 .f32 0x00000000#32)))
          (broadcast S4000x128 (Scalar.ofBits .f32 0x3EAAAAAB#32)) := rfl

/-- The payload at a row and a column: the update's formula on the blocks. -/
theorem pay_apply (x0 : Vec Ideal S4000x128 .f32) (x3 : Vec Ideal S1x64 .f32) (x4 : Vec Ideal S128x128 .f32)
    (x1 x2 : Vec Ideal S4000x128 .f32) (p : Fin 4000) (j : Fin 128) :
    k1_pay1 (F := Ideal) x0 x3 x4 x1 x2 (ix2 p j)
      = ((x1 (ix2 p j) + x2 (ix2 p j))
          + ∑ k : Fin 128, Cert.RotConv.rotEntry (fun q => x0 (ix2 p q)) (fun q => x3 (ix2 (0 : Fin 1) q) * Cert.RotConv.angleUnit) k
              * x4 (ix2 k j)) * Cert.RotConv.third := by
  rw [pay_eq, shapeCast_self, shapeCast_self]
  show ((x1 (ix2 p j) + x2 (ix2 p j)) + matmul dot_S4000x128_S128x128_S4000x128_1_0_0_1_n_n none (truncf .bf16 (rotBlock x0 x3) bitsLt_bf16_f32)
            (truncf .bf16 x4 bitsLt_bf16_f32) (constant S4000x128 .f32 0x00000000#32) (ix2 p j)) * Cert.RotConv.third = _
  rw [product_apply]
  refine congrArg (fun s => ((x1 (ix2 p j) + x2 (ix2 p j)) + s) * Cert.RotConv.third) ?_
  refine Finset.sum_congr rfl fun k _ => ?_
  show rotBlock x0 x3 (ix2 p k) * x4 (ix2 k j) = _
  rw [rotBlock_apply]

/-- The payload of blocks that are rows of whole arrays is the update of those arrays at the row: if row p of the three
    row-blocked inputs is row r of the arrays X, A, B, and the relation row and the weight are L and W, then the
    payload at (p, j) is the update at (r, j). -/
theorem pay_update (x0 : Vec Ideal S4000x128 .f32) (x3 : Vec Ideal S1x64 .f32) (x4 : Vec Ideal S128x128 .f32)
    (x1 x2 : Vec Ideal S4000x128 .f32) (X A B : S100000x128.Idx → EReal) (L : S1x64.Idx → EReal)
    (W : S128x128.Idx → EReal) (p : Fin 4000) (j : Fin 128) (r : Fin 100000)
    (h0 : ∀ q : Fin 128, x0 (ix2 p q) = X (ix2 r q)) (h1 : x1 (ix2 p j) = A (ix2 r j)) (h2 : x2 (ix2 p j) = B (ix2 r j))
    (h3 : ∀ q : Fin 64, x3 (ix2 (0 : Fin 1) q) = L (ix2 (0 : Fin 1) q)) (h4 : ∀ k : Fin 128, x4 (ix2 k j) = W (ix2 k j)) :
    k1_pay1 (F := Ideal) x0 x3 x4 x1 x2 (ix2 p j) = Cert.RotConv.update X A B L W (ix2 r j) := by
  rw [pay_apply, h1, h2]
  simp only [h0, h3, h4]
  rfl

/-! ## From the blocks to the array -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The windows' index maps, decided over the grid: the four row-blocked windows are at block t of the rows and block 0
    of the columns; the relation row and the weight are at block 0 on both axes. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the entity block at point t is row 4000·t + p of the entity array. -/
theorem block0_apply (c : Dev nD) (t : Fin cfg1.N) (p : Fin 4000) (q : Fin 128) (r : Fin 100000)
    (hr : r.val = t.val * 4000 + p.val) :
    (iblk1 V c 0 t : Vec Ideal S4000x128 .f32) (ix2 p q) = (V c main_arg0 : S100000x128.Idx → EReal) (ix2 r q) := by
  obtain ⟨e0, e1, -⟩ := index_facts t
  show V c main_arg0 (((cfg1.win 0).blk t).view.emb (ix2 p q)) = V c main_arg0 (ix2 r q)
  refine congrArg (V c main_arg0) (funext fun a => Fin.ext ?_)
  match a with
  | ⟨0, _⟩ => show win1_0.index t (0 : Fin 2) * 4000 + 1 * p.val = r.val; omega
  | ⟨1, _⟩ => show win1_0.index t (1 : Fin 2) * 128 + 1 * q.val = q.val; omega

/-- Row p of the first aggregate's block at point t is row 4000·t + p of that array. -/
theorem block1_apply (c : Dev nD) (t : Fin cfg1.N) (p : Fin 4000) (q : Fin 128) (r : Fin 100000)
    (hr : r.val = t.val * 4000 + p.val) :
    (iblk1 V c 1 t : Vec Ideal S4000x128 .f32) (ix2 p q) = (V c main_v134 : S100000x128.Idx → EReal) (ix2 r q) := by
  obtain ⟨-, -, e0, e1, -⟩ := index_facts t
  show V c main_v134 (((cfg1.win 1).blk t).view.emb (ix2 p q)) = V c main_v134 (ix2 r q)
  refine congrArg (V c main_v134) (funext fun a => Fin.ext ?_)
  match a with
  | ⟨0, _⟩ => show win1_1.index t (0 : Fin 2) * 4000 + 1 * p.val = r.val; omega
  | ⟨1, _⟩ => show win1_1.index t (1 : Fin 2) * 128 + 1 * q.val = q.val; omega

/-- Row p of the second aggregate's block at point t is row 4000·t + p of that array. -/
theorem block2_apply (c : Dev nD) (t : Fin cfg1.N) (p : Fin 4000) (q : Fin 128) (r : Fin 100000)
    (hr : r.val = t.val * 4000 + p.val) :
    (iblk1 V c 2 t : Vec Ideal S4000x128 .f32) (ix2 p q) = (V c main_v144 : S100000x128.Idx → EReal) (ix2 r q) := by
  obtain ⟨-, -, -, -, e0, e1, -⟩ := index_facts t
  show V c main_v144 (((cfg1.win 2).blk t).view.emb (ix2 p q)) = V c main_v144 (ix2 r q)
  refine congrArg (V c main_v144) (funext fun a => Fin.ext ?_)
  match a with
  | ⟨0, _⟩ => show win1_2.index t (0 : Fin 2) * 4000 + 1 * p.val = r.val; omega
  | ⟨1, _⟩ => show win1_2.index t (1 : Fin 2) * 128 + 1 * q.val = q.val; omega

/-- The relation row's block at every point is the whole row. -/
theorem block3_apply (c : Dev nD) (t : Fin cfg1.N) (q : Fin 64) :
    (iblk1 V c 3 t : Vec Ideal S1x64 .f32) (ix2 (0 : Fin 1) q) = (V c main_arg8 : S1x64.Idx → EReal) (ix2 (0 : Fin 1) q) := by
  obtain ⟨-, -, -, -, -, -, e0, e1, -⟩ := index_facts t
  show V c main_arg8 (((cfg1.win 3).blk t).view.emb (ix2 (0 : Fin 1) q)) = V c main_arg8 (ix2 (0 : Fin 1) q)
  refine congrArg (V c main_arg8) (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 64 + 1 * q.val = q.val; omega

/-- The weight's block at every point is the whole weight. -/
theorem block4_apply (c : Dev nD) (t : Fin cfg1.N) (k : Fin 128) (j : Fin 128) :
    (iblk1 V c 4 t : Vec Ideal S128x128 .f32) (ix2 k j) = (V c main_arg4 : S128x128.Idx → EReal) (ix2 k j) := by
  obtain ⟨-, -, -, -, -, -, -, -, e0, e1, -⟩ := index_facts t
  show V c main_arg4 (((cfg1.win 4).blk t).view.emb (ix2 k j)) = V c main_arg4 (ix2 k j)
  refine congrArg (V c main_arg4) (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega

end Blocks

section Array

variable (V : (c : Dev nD) → (b : Ref sig .tc) → Buf (Elt Ideal) ((c : Thread nD τ).loc b))

/-- The entity update of the arrays as the region finds them. -/
abbrev updateOf (c : Dev nD) : S100000x128.Idx → EReal :=
  Cert.RotConv.update (V c main_arg0) (V c main_v134) (V c main_v144) (V c main_arg8) (V c main_arg4)

/-- What point t writes back is block t of the update. -/
theorem flushed_eq (c : Dev nD) (t : Fin cfg1.N) :
    (dat1 (F := Ideal) V c).flushed 5 t = ((cfg1.win 5).blk t).view.read (Elt Ideal) (updateOf V c) := by
  show (cfg1.win 5).cut (grid1.coords t) ((dat1 (F := Ideal) V c).after 5 t) = _
  rw [after1_5]
  unfold out1_5
  rw [View.canon_unit_zero zero_offsets]
  simp only [View.ld_unit_zero (S := S4000x128) zero_offsets, View.ld_unit_zero (S := S1x64) zero_offsets,
    View.ld_unit_zero (S := S128x128) zero_offsets]
  refine funext fun (y : S4000x128.Idx) => ?_
  obtain ⟨p, j, rfl⟩ : ∃ (p : Fin 4000) (j : Fin 128), y = ix2 p j := ⟨y 0, y 1, eq_ix2 y⟩
  have hN : t.val < 25 := Nat.lt_of_lt_of_eq t.isLt N_1
  have hp : p.val < 4000 := p.isLt
  obtain ⟨-, -, -, -, -, -, -, -, -, -, e0, e1⟩ := index_facts t
  have hemb : ((cfg1.win 5).blk t).view.emb (ix2 p j) = (ix2 (⟨t.val * 4000 + p.val, by omega⟩ : Fin 100000) j : S100000x128.Idx) :=
    funext fun a => Fin.ext (by
      match a with
      | ⟨0, _⟩ => show win1_5.index t (0 : Fin 2) * 4000 + 1 * p.val = t.val * 4000 + p.val; omega
      | ⟨1, _⟩ => show win1_5.index t (1 : Fin 2) * 128 + 1 * j.val = j.val; omega)
  show k1_pay1 (F := Ideal) (iblk1 V c 0 t) (iblk1 V c 3 t) (iblk1 V c 4 t) (iblk1 V c 1 t) (iblk1 V c 2 t) (ix2 p j)
      = updateOf V c (((cfg1.win 5).blk t).view.emb (ix2 p j))
  exact (pay_update (iblk1 V c 0 t) (iblk1 V c 3 t) (iblk1 V c 4 t) (iblk1 V c 1 t) (iblk1 V c 2 t)
      (V c main_arg0) (V c main_v134) (V c main_v144) (V c main_arg8) (V c main_arg4) p j ⟨t.val * 4000 + p.val, by omega⟩
      (fun q => block0_apply V c t p q _ rfl) (block1_apply V c t p j _ rfl) (block2_apply V c t p j _ rfl)
      (fun q => block3_apply V c t q) (fun k => block4_apply V c t k j)).trans (congrArg (updateOf V c) hemb.symm)

/-- An index of the array is in point t's block iff each coordinate is in the block's range on its axis. -/
theorem mem_block (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v145).slice (win1_5.rect t)).set ↔ _
  rw [View.set_slice_whole, Rect.mem_set_unit]
  exact Iff.rfl

/-- Every index of the array is in some point's block: row r is in block r / 4000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, Nat.lt_of_lt_of_eq (by omega : (i 0).val / 4000 < 25) N_1.symm⟩, rfl⟩
  obtain ⟨-, -, -, -, -, -, -, -, -, -, e0, e1⟩ := index_facts t
  refine ⟨t, flush1_5 t, ?_⟩
  rw [mem_block]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 128 ≤ (i 1).val ∧ (i 1).val < win1_5.index t (1 : Fin 2) * 128 + 128
    omega

/-- The array after the region is the entity update of the arrays the region finds. -/
theorem update_eq (c : Dev nD) :
    (dat1 (F := Ideal) V c).arrAt 5 cfg1.N
      = Cert.RotConv.update (V c main_arg0) (V c main_v134) (V c main_v144) (V c main_arg8) (V c main_arg4) :=
  (dat1 (F := Ideal) V c).arrAt_eq_of_cover 5 (updateOf V c) (fun t _ => flushed_eq V c t) cover

end Array

end Cert.KernelIdeal.Region1

end
-- ==== Proof.KernelChain.lean ====
/-
  The two result arrays of the idealized kernel's run, named as functions of the launch memory.

  The buffer contents at the boundaries of @main's thirteen segments are a fold W0 … W13 from the launch memory.
  A buffer that no operation of a stretch of host operations writes is unchanged by the stretch; an input window's
  array, and every buffer a region does not stage, is unchanged by the region; a region's output array after the
  region is the region's function of the contents at its entry. Walking these steps: the message array at the
  message region's exit is the message function of that region's three input arrays; the entity result is the
  entity update of the entity argument, the two aggregates at the update region's entry, the loop relation row and
  the loop weight; the relation result is the first 500 rows of the product of the relation rows (the 500 relations
  with the loop relation row appended) with the relation weight.
-/
import proofs.«178232_j34394098106413_2_alg».proof.Proof.Gen.KernelIdeal.Frame
import proofs.«178232_j34394098106413_2_alg».proof.Proof.Region0
import proofs.«178232_j34394098106413_2_alg».proof.Proof.Region1
import Idealize.ShloMosaic.Lib.StableHlo.Run

set_option maxRecDepth 16384

noncomputable section

namespace Cert.KernelIdeal.Chain

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- Closes "no operation of this stretch writes the buffer": the stretch's writes are listed, and the buffer is
    none of them. -/
local macro "not_written" ops:ident : tactic =>
  `(tactic| (
    refine List.forall_iff_forall_mem.mp ?_
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The entity result -/

/-- The last stretch writes neither result of the update region nor any argument. -/
theorem last_keeps_v145 : W13 (F := Ideal) m ρ c (Proc.devRef .tc main_v145) = W12 m ρ c (Proc.devRef .tc main_v145) :=
  StableHlo.after_of_forall_not_mem (b := Proc.devRef .tc main_v145) _ _ (by not_written hostOps2)

theorem last_keeps_arg0 : W13 (F := Ideal) m ρ c (Proc.devRef .tc main_arg0) = W12 m ρ c (Proc.devRef .tc main_arg0) :=
  StableHlo.after_of_forall_not_mem (b := Proc.devRef .tc main_arg0) _ _ (by not_written hostOps2)

theorem last_keeps_arg8 : W13 (F := Ideal) m ρ c (Proc.devRef .tc main_arg8) = W12 m ρ c (Proc.devRef .tc main_arg8) :=
  StableHlo.after_of_forall_not_mem (b := Proc.devRef .tc main_arg8) _ _ (by not_written hostOps2)

theorem last_keeps_arg4 : W13 (F := Ideal) m ρ c (Proc.devRef .tc main_arg4) = W12 m ρ c (Proc.devRef .tc main_arg4) :=
  StableHlo.after_of_forall_not_mem (b := Proc.devRef .tc main_arg4) _ _ (by not_written hostOps2)

/-- The update region leaves its input windows' arrays as it finds them. -/
theorem update_keeps_arg0 : W12 (F := Ideal) m ρ c (Proc.devRef .tc main_arg0) = W11 m ρ c (Proc.devRef .tc main_arg0) :=
  (W12_arr m ρ c 0).trans (((dat1 (V11 m ρ) c).arrAt_in 0 rfl _).trans (A_eq1 (V11 m ρ) c 0))

theorem update_keeps_arg8 : W12 (F := Ideal) m ρ c (Proc.devRef .tc main_arg8) = W11 m ρ c (Proc.devRef .tc main_arg8) :=
  (W12_arr m ρ c 3).trans (((dat1 (V11 m ρ) c).arrAt_in 3 rfl _).trans (A_eq1 (V11 m ρ) c 3))

theorem update_keeps_arg4 : W12 (F := Ideal) m ρ c (Proc.devRef .tc main_arg4) = W11 m ρ c (Proc.devRef .tc main_arg4) :=
  (W12_arr m ρ c 4).trans (((dat1 (V11 m ρ) c).arrAt_in 4 rfl _).trans (A_eq1 (V11 m ρ) c 4))

/-- At the update region's entry the three argument arrays it reads hold the launch memory. -/
theorem entry_arg0 : V11 (F := Ideal) m ρ c main_arg0 = m ((c : Thread nD τ).loc main_arg0) :=
  (update_keeps_arg0 m ρ c).symm.trans ((last_keeps_arg0 m ρ c).symm.trans (W13_main_arg0 m ρ c))

theorem entry_arg8 : V11 (F := Ideal) m ρ c main_arg8 = m ((c : Thread nD τ).loc main_arg8) :=
  (update_keeps_arg8 m ρ c).symm.trans ((last_keeps_arg8 m ρ c).symm.trans (W13_main_arg8 m ρ c))

theorem entry_arg4 : V11 (F := Ideal) m ρ c main_arg4 = m ((c : Thread nD τ).loc main_arg4) :=
  (update_keeps_arg4 m ρ c).symm.trans ((last_keeps_arg4 m ρ c).symm.trans (W13_main_arg4 m ρ c))

/-- THE ENTITY RESULT: the entity update of the entity argument, the two aggregates as the update region finds
    them, the loop relation row and the loop weight. -/
theorem result_update :
    W13 (F := Ideal) m ρ c (Proc.devRef .tc main_v145)
      = Cert.RotConv.update (m ((c : Thread nD τ).loc main_arg0)) (V11 m ρ c main_v134) (V11 m ρ c main_v144)
          (m ((c : Thread nD τ).loc main_arg8)) (m ((c : Thread nD τ).loc main_arg4)) := by
  rw [← entry_arg0 m ρ c, ← entry_arg8 m ρ c, ← entry_arg4 m ρ c]
  exact (last_keeps_v145 m ρ c).trans ((W12_arr m ρ c 5).trans (Region1.update_eq (V11 m ρ) c))

/-! ## The message array -/

/-- THE MESSAGE ARRAY at the message region's exit: the message function of its three input arrays as the region
    finds them. -/
theorem messages_array :
    W10 (F := Ideal) m ρ c (Proc.devRef .tc main_v122)
      = Cert.RotConv.messages (V9 m ρ c main_v117) (V9 m ρ c main_v118) (V9 m ρ c main_v121) :=
  (W10_arr m ρ c 3).trans (Region0.messages_eq (V9 m ρ) c)

/-! ## The relation result -/

/-- The relation weight at the update region's exit is the launch memory. -/
theorem exit_arg7 : W12 (F := Ideal) m ρ c (Proc.devRef .tc main_arg7) = m ((c : Thread nD τ).loc main_arg7) :=
  (StableHlo.after_of_forall_not_mem (b := Proc.devRef .tc main_arg7) _ _ (by not_written hostOps2)).symm.trans
    (W13_main_arg7 m ρ c)

/-- The relation rows (written once, by the first host operation) are not touched again: neither region stages
    them and no later host operation writes them. -/
theorem rows_kept : W12 (F := Ideal) m ρ c (Proc.devRef .tc main_v0) = W1 m ρ c (Proc.devRef .tc main_v0) :=
  calc W12 (F := Ideal) m ρ c (Proc.devRef .tc main_v0)
    _ = W11 m ρ c (Proc.devRef .tc main_v0) := W12_of_ne m ρ c main_v0 (by decide)
    _ = W10 m ρ c (Proc.devRef .tc main_v0) :=
        StableHlo.after_of_forall_not_mem (b := Proc.devRef .tc main_v0) _ _ (by not_written hostOps1)
    _ = W9 m ρ c (Proc.devRef .tc main_v0) := W10_of_ne m ρ c main_v0 (by decide)
    _ = W8 m ρ c (Proc.devRef .tc main_v0) :=
        StableHlo.after_of_forall_not_mem (b := Proc.devRef .tc main_v0) _ _ (by not_written hostOps0_8)
    _ = W7 m ρ c (Proc.devRef .tc main_v0) :=
        StableHlo.after_of_forall_not_mem (b := Proc.devRef .tc main_v0) _ _ (by not_written hostOps0_7)
    _ = W6 m ρ c (Proc.devRef .tc main_v0) :=
        StableHlo.after_of_forall_not_mem (b := Proc.devRef .tc main_v0) _ _ (by not_written hostOps0_6)
    _ = W5 m ρ c (Proc.devRef .tc main_v0) :=
        StableHlo.after_of_forall_not_mem (b := Proc.devRef .tc main_v0) _ _ (by not_written hostOps0_5)
    _ = W4 m ρ c (Proc.devRef .tc main_v0) :=
        StableHlo.after_of_forall_not_mem (b := Proc.devRef .tc main_v0) _ _ (by not_written hostOps0_4)
    _ = W3 m ρ c (Proc.devRef .tc main_v0) :=
        StableHlo.after_of_forall_not_mem (b := Proc.devRef .tc main_v0) _ _ (by not_written hostOps0_3)
    _ = W2 m ρ c (Proc.devRef .tc main_v0) :=
        StableHlo.after_of_forall_not_mem (b := Proc.devRef .tc main_v0) _ _ (by not_written hostOps0_2)
    _ = W1 m ρ c (Proc.devRef .tc main_v0) :=
        StableHlo.after_of_forall_not_mem (b := Proc.devRef .tc main_v0) _ _ (by not_written hostOps0_1)

/-- The relation rows after the first stretch: the 500 relations with the loop relation row appended. -/
theorem rows_eq :
    W1 (F := Ideal) m ρ c (Proc.devRef .tc main_v0)
      = concatenate S501x64 0 [⟨S500x64, (m ((c : Thread nD τ).loc main_arg3) : FVec Ideal S500x64 .f32)⟩,
              ⟨S1x64, (m ((c : Thread nD τ).loc main_arg8) : FVec Ideal S1x64 .f32)⟩]
          concatenates_S500x64_S1x64_S501x64_d0 := by
  show StableHlo.after hostOps0 (W0 m ρ c) (Proc.devRef .tc main_v0) = _
  simp only [hostOps0]
  after_results_simp

/-- What the last stretch leaves in the relation result, of the contents at the update region's exit. -/
theorem last_rel :
    W13 (F := Ideal) m ρ c (Proc.devRef .tc main_v147)
      = extractStridedSlice S500x64 ![0, 0]
          (Host.dotGeneral (F := Ideal) (φ₁ := .f32) (φ₂ := .f32) dot_S501x64_S64x64_S501x64_1_0_0_1_n_n none (W12 m ρ c (Proc.devRef .tc main_v0))
            (W12 m ρ c (Proc.devRef .tc main_arg7))) slices_S501x64_S500x64_0_0 := by
  show StableHlo.after hostOps2 (W12 m ρ c) (Proc.devRef .tc main_v147) = _
  simp only [hostOps2]
  after_results_simp

/-- THE RELATION RESULT: the first 500 rows of the product of the relation rows with the relation weight. -/
theorem result_rel :
    W13 (F := Ideal) m ρ c (Proc.devRef .tc main_v147)
      = extractStridedSlice S500x64 ![0, 0]
          (Host.dotGeneral (F := Ideal) (φ₁ := .f32) (φ₂ := .f32) dot_S501x64_S64x64_S501x64_1_0_0_1_n_n none
            (concatenate S501x64 0 [⟨S500x64, (m ((c : Thread nD τ).loc main_arg3) : FVec Ideal S500x64 .f32)⟩,
              ⟨S1x64, (m ((c : Thread nD τ).loc main_arg8) : FVec Ideal S1x64 .f32)⟩]
              concatenates_S500x64_S1x64_S501x64_d0)
            (m ((c : Thread nD τ).loc main_arg7))) slices_S501x64_S500x64_0_0 := by
  rw [last_rel, rows_kept, rows_eq, exit_arg7]

end Cert.KernelIdeal.Chain

end
-- ==== Proof.Aggregates.lean ====
/-
  The two aggregated message tables between the regions.

  After the message region, the host cuts the message array [1000000, 128] into its first and its second 500000 rows
  (the two directions' messages) and adds each half's rows into a zero [100000, 128] table at the rows the edges point
  to.  A direction's target entities are the first row of its [2, 500000] half of the edge index, read as a vector of
  500000 words; a negative word i stands for i + 100000, and the words are laid as a [500000, 1] column of scatter
  indices.  Both tables are therefore one scatter-add each, of a slice of the message array as the region leaves it,
  at indices computed from the edge index alone.
-/
import proofs.«178232_j34394098106413_2_alg».proof.Proof.Gen.KernelIdeal.Frame
import Idealize.ShloMosaic.Lib.StableHlo.Run

set_option maxRecDepth 16384

noncomputable section

namespace Cert.KernelIdeal.Aggregates

open Cert.KernelIdeal Cert.KernelIdeal.Gen
open Idealize.ShloMosaic Idealize.ShloMosaic.TcCoe Idealize.ShloMosaic.StableHlo Idealize.SL.Sem

/-- A direction's target entities: the first row of its half of the edge index, as a vector of 500000 words. -/
def targetRow (half : IVec S2x500000 32) : IVec S500000 32 :=
  shapeCast S500000 (extractStridedSlice S1x500000 ![0, 0] half slices_S2x500000_S1x500000_0_0) shapeCasts_S1x500000_S500000

/-- The scatter indices of a vector of entity words: a negative word i stands for i + 100000; laid as a column. -/
def signedIndex (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

variable (m : (ℓ : Loc nD τ sig) → Buf (Elt Ideal) ℓ) (ρ : Dev nD → PrngReg) (c : Dev nD)

/-- The incoming aggregate: the first 500000 message rows added into a zero table at the first direction's targets. -/
theorem in_aggregate : V11 (F := Ideal) m ρ c main_v134
    = Host.scatterAdd scatter_S100000x128_S500000x1_S500000x128_1_0_0_1
        (broadcastInDim S100000x128 ![] bcast_S_S100000x128 (constant (F := Ideal) S_ .f32 0x00000000#32))
        (signedIndex (targetRow (W10 m ρ c (Proc.devRef .tc main_v1))))
        (extractStridedSlice S500000x128 ![0, 0] (W10 m ρ c (Proc.devRef .tc main_v122)) slices_S1000000x128_S500000x128_0_0) := by
  show StableHlo.after hostOps1 (W10 m ρ c) (Proc.devRef .tc main_v134) = _
  simp only [hostOps1]
  after_results_simp
  rfl

/-- The outgoing aggregate: the second 500000 message rows added into a zero table at the second direction's targets. -/
theorem out_aggregate : V11 (F := Ideal) m ρ c main_v144
    = Host.scatterAdd scatter_S100000x128_S500000x1_S500000x128_1_0_0_1
        (broadcastInDim S100000x128 ![] bcast_S_S100000x128 (constant (F := Ideal) S_ .f32 0x00000000#32))
        (signedIndex (targetRow (W10 m ρ c (Proc.devRef .tc main_v2))))
        (extractStridedSlice S500000x128 ![500000, 0] (W10 m ρ c (Proc.devRef .tc main_v122)) slices_S1000000x128_S500000x128_500000_0) := by
  show StableHlo.after hostOps1 (W10 m ρ c) (Proc.devRef .tc main_v144) = _
  simp only [hostOps1]
  after_results_simp
  rfl

end Cert.KernelIdeal.Aggregates

end
-- ==== Proof.KernelRead.lean ====
/-
  What the message region is given, and what the host reads back from it, entry by entry.

  Before the message region the host builds three arrays from the two directions' data.  The scaled source rows: each
  direction's gathered entity rows times its edge weights, the weight of edge e spread along row e (the rounding to the
  narrower format is the identity over the extended reals), the incoming direction's 500000 rows stacked on top of the
  outgoing direction's.  The relation rows, stacked the same way.  The two weights, stacked along a new leading axis.
  The message of edge e at column j contracts the composed row of edge e with weight e / 500000.  So rows 0 … 499999 of
  the message array are the incoming direction's messages, formed from the incoming data alone, and rows
  500000 … 999999 the outgoing direction's.
-/
import proofs.«178232_j34394098106413_2_alg».proof.KernelIdeal
import proofs.«178232_j34394098106413_2_alg».proof.Proof.Spec
import proofs.«178232_j34394098106413_2_alg».proof.Proof.LibKeepdims
import Idealize.ShloMosaic.PureOps.Ideal
import Idealize.ShloMosaic.Lib.ValueIdx
import Idealize.ShloMosaic.Lib.Pipeline.Value

noncomputable section

open scoped BigOperators

namespace Cert.KernelIdeal.Messages

open Idealize.ShloMosaic Idealize.ShloMosaic.ValueIdx
open Cert.KernelIdeal

/-! ## Stacking and slicing, read at an entry (any extents, any element type) -/

section Generic
variable {α : Type}

/-- Two matrices stacked along the rows, at a row of the first. -/
theorem stack_top {n1 n2 N w : ℕ} (A : (⟨2, ![n1, w]⟩ : Shape).Idx → α) (B : (⟨2, ![n2, w]⟩ : Shape).Idx → α)
    (h : Shape.Concatenates [(⟨2, ![n1, w]⟩ : Shape), (⟨2, ![n2, w]⟩ : Shape)] (⟨2, ![N, w]⟩ : Shape) 0)
    (r : Fin N) (a : Fin n1) (q : Fin w) (hr : r.val = a.val) :
    concatenate (⟨2, ![N, w]⟩ : Shape) 0 [⟨(⟨2, ![n1, w]⟩ : Shape), A⟩, ⟨(⟨2, ![n2, w]⟩ : Shape), B⟩] h (ix2 r q) = A (ix2 a q) :=
  concatenate_pair_apply_left 0 A B h (ix2 r q) rfl (ix2 a q)
    (fun b => match b with | ⟨0, _⟩ => hr.symm | ⟨1, _⟩ => rfl)

/-- Two matrices stacked along the rows, at a row of the second. -/
theorem stack_bottom {n1 n2 N w : ℕ} (A : (⟨2, ![n1, w]⟩ : Shape).Idx → α) (B : (⟨2, ![n2, w]⟩ : Shape).Idx → α)
    (h : Shape.Concatenates [(⟨2, ![n1, w]⟩ : Shape), (⟨2, ![n2, w]⟩ : Shape)] (⟨2, ![N, w]⟩ : Shape) 0)
    (r : Fin N) (a : Fin n2) (q : Fin w) (hr : r.val = n1 + a.val) :
    concatenate (⟨2, ![N, w]⟩ : Shape) 0 [⟨(⟨2, ![n1, w]⟩ : Shape), A⟩, ⟨(⟨2, ![n2, w]⟩ : Shape), B⟩] h (ix2 r q) = B (ix2 a q) :=
  concatenate_pair_apply_right 0 A B h (ix2 r q) rfl rfl (ix2 a q)
    (fun b hb => match b with | ⟨0, _⟩ => absurd rfl hb | ⟨1, _⟩ => rfl)
    (by show a.val + n1 = r.val; omega)

/-- Two single planes stacked along a new leading axis, at the first plane. -/
theorem planes_first {a b : ℕ} (A B : (⟨3, ![1, a, b]⟩ : Shape).Idx → α)
    (h : Shape.Concatenates [(⟨3, ![1, a, b]⟩ : Shape), (⟨3, ![1, a, b]⟩ : Shape)] (⟨3, ![2, a, b]⟩ : Shape) 0)
    (d : Fin 2) (hd : d.val = 0) (k : Fin a) (j : Fin b) :
    concatenate (⟨3, ![2, a, b]⟩ : Shape) 0 [⟨(⟨3, ![1, a, b]⟩ : Shape), A⟩, ⟨(⟨3, ![1, a, b]⟩ : Shape), B⟩] h (ix3 d k j)
      = A (ix3 (0 : Fin 1) k j) :=
  concatenate_pair_apply_left 0 A B h (ix3 d k j) rfl (ix3 (0 : Fin 1) k j)
    (fun x => match x with | ⟨0, _⟩ => hd.symm | ⟨1, _⟩ => rfl | ⟨2, _⟩ => rfl)

/-- Two single planes stacked along a new leading axis, at the second plane. -/
theorem planes_second {a b : ℕ} (A B : (⟨3, ![1, a, b]⟩ : Shape).Idx → α)
    (h : Shape.Concatenates [(⟨3, ![1, a, b]⟩ : Shape), (⟨3, ![1, a, b]⟩ : Shape)] (⟨3, ![2, a, b]⟩ : Shape) 0)
    (d : Fin 2) (hd : d.val = 1) (k : Fin a) (j : Fin b) :
    concatenate (⟨3, ![2, a, b]⟩ : Shape) 0 [⟨(⟨3, ![1, a, b]⟩ : Shape), A⟩, ⟨(⟨3, ![1, a, b]⟩ : Shape), B⟩] h (ix3 d k j)
      = B (ix3 (0 : Fin 1) k j) :=
  concatenate_pair_apply_right 0 A B h (ix3 d k j) rfl rfl (ix3 (0 : Fin 1) k j)
    (fun x hx => match x with | ⟨0, _⟩ => absurd rfl hx | ⟨1, _⟩ => rfl | ⟨2, _⟩ => rfl)
    (by show 0 + 1 = d.val; omega)

/-- A matrix placed as the one plane of a three-axis array: entry (0, k, j) is the matrix's entry (k, j). -/
theorem plane_apply {a b : ℕ} (h : (⟨2, ![a, b]⟩ : Shape).BroadcastsInDim ⟨3, ![1, a, b]⟩ ![1, 2])
    (W : (⟨2, ![a, b]⟩ : Shape).Idx → α) (k : Fin a) (j : Fin b) :
    broadcastInDim (⟨3, ![1, a, b]⟩ : Shape) ![1, 2] h W (ix3 (0 : Fin 1) k j) = W (ix2 k j) := by
  refine broadcastInDim_apply _ h W (ix3 (0 : Fin 1) k j) (ix2 k j) (fun x => ?_)
  match x with
  | ⟨0, _⟩ =>
    show k.val = if a = 1 then 0 else k.val
    split_ifs with h1
    · have := k.isLt; omega
    · rfl
  | ⟨1, _⟩ =>
    show j.val = if b = 1 then 0 else j.val
    split_ifs with h1
    · have := j.isLt; omega
    · rfl

/-- A block of rows of a matrix: the slice that keeps n rows from row o on and every column reads, at (p, q), the
    matrix at (o + p, q). -/
theorem rowSlice_apply {N n w : ℕ} (o : ℕ) (x : (⟨2, ![N, w]⟩ : Shape).Idx → α)
    (h : (⟨2, ![N, w]⟩ : Shape).Slices ![o, 0] ⟨2, ![n, w]⟩) (p : Fin n) (q : Fin w) (r : Fin N)
    (hr : r.val = o + p.val) :
    extractStridedSlice (⟨2, ![n, w]⟩ : Shape) ![o, 0] x h (ix2 p q) = x (ix2 r q) :=
  extractStridedSlice_apply ![o, 0] x h (ix2 p q) (ix2 r q) fun ax => by
    match ax with
    | ⟨0, _⟩ => exact hr
    | ⟨1, _⟩ => exact (Nat.zero_add q.val).symm

end Generic

/-! ## The three arrays the message region is given -/

variable [Facts₀]
open Facts₀

/-- One direction's scaled source rows: the gathered entity rows times the edge weights spread along each row. -/
def scaledRows (XG : FVec Ideal S500000x128 .f32) (N : FVec Ideal S500000 .f32) : FVec Ideal S500000x128 .bf16 :=
  truncf .bf16 (mulf XG (broadcastInDim S500000x128 ![0, 1] bcast_S500000x1_S500000x128_0_1
    (broadcastInDim S500000x1 ![0] bcast_S500000_S500000x1_0 N))) bitsLt_bf16_f32

/-- The two directions' scaled source rows, the incoming direction's on top. -/
def stackedRows (XGi XGo : FVec Ideal S500000x128 .f32) (Ni No : FVec Ideal S500000 .f32) : FVec Ideal S1000000x128 .bf16 :=
  concatenate S1000000x128 0 [⟨S500000x128, scaledRows XGi Ni⟩, ⟨S500000x128, scaledRows XGo No⟩]
    concatenates_S500000x128_S500000x128_S1000000x128_d0

/-- The two directions' relation rows, the incoming direction's on top. -/
def stackedRel (RGi RGo : FVec Ideal S500000x64 .f32) : FVec Ideal S1000000x64 .f32 :=
  concatenate S1000000x64 0 [⟨S500000x64, RGi⟩, ⟨S500000x64, RGo⟩] concatenates_S500000x64_S500000x64_S1000000x64_d0

/-- The two directions' weights, stacked along a new leading axis. -/
def stackedWeights (Wi Wo : FVec Ideal S128x128 .f32) : FVec Ideal S2x128x128 .f32 :=
  concatenate S2x128x128 0
    [⟨S1x128x128, broadcastInDim S1x128x128 ![1, 2] bcast_S128x128_S1x128x128_1_2 Wi⟩,
     ⟨S1x128x128, broadcastInDim S1x128x128 ![1, 2] bcast_S128x128_S1x128x128_1_2 Wo⟩]
    concatenates_S1x128x128_S1x128x128_S2x128x128_d0

/-- Entry (e, q) of one direction's scaled rows: the gathered entry times the edge's weight. -/
theorem scaledRows_apply (XG : FVec Ideal S500000x128 .f32) (N : FVec Ideal S500000 .f32) (e : Fin 500000) (q : Fin 128) :
    scaledRows XG N (ix2 e q) = XG (ix2 e q) * N (ix1 e) :=
  congrArg (XG (ix2 e q) * ·)
    (Keepdims.rows_apply (a := 500000) (b := 128) bcast_S500000_S500000x1_0 bcast_S500000x1_S500000x128_0_1 N e q)

/-- The stacked rows at a row of the upper half. -/
theorem stackedRows_top (XGi XGo : FVec Ideal S500000x128 .f32) (Ni No : FVec Ideal S500000 .f32)
    (r : Fin 1000000) (e : Fin 500000) (hr : r.val = e.val) (q : Fin 128) :
    stackedRows XGi XGo Ni No (ix2 r q) = XGi (ix2 e q) * Ni (ix1 e) :=
  (stack_top (scaledRows XGi Ni) (scaledRows XGo No) concatenates_S500000x128_S500000x128_S1000000x128_d0 r e q hr).trans
    (scaledRows_apply XGi Ni e q)

/-- The stacked rows at a row of the lower half. -/
theorem stackedRows_bottom (XGi XGo : FVec Ideal S500000x128 .f32) (Ni No : FVec Ideal S500000 .f32)
    (r : Fin 1000000) (e : Fin 500000) (hr : r.val = 500000 + e.val) (q : Fin 128) :
    stackedRows XGi XGo Ni No (ix2 r q) = XGo (ix2 e q) * No (ix1 e) :=
  (stack_bottom (scaledRows XGi Ni) (scaledRows XGo No) concatenates_S500000x128_S500000x128_S1000000x128_d0 r e q hr).trans
    (scaledRows_apply XGo No e q)

/-- The stacked relation rows at a row of the upper half. -/
theorem stackedRel_top (RGi RGo : FVec Ideal S500000x64 .f32) (r : Fin 1000000) (e : Fin 500000) (hr : r.val = e.val)
    (q : Fin 64) : stackedRel RGi RGo (ix2 r q) = RGi (ix2 e q) :=
  stack_top RGi RGo concatenates_S500000x64_S500000x64_S1000000x64_d0 r e q hr

/-- The stacked relation rows at a row of the lower half. -/
theorem stackedRel_bottom (RGi RGo : FVec Ideal S500000x64 .f32) (r : Fin 1000000) (e : Fin 500000)
    (hr : r.val = 500000 + e.val) (q : Fin 64) : stackedRel RGi RGo (ix2 r q) = RGo (ix2 e q) :=
  stack_bottom RGi RGo concatenates_S500000x64_S500000x64_S1000000x64_d0 r e q hr

/-- The stacked weights at plane 0: the incoming direction's weight. -/
theorem stackedWeights_first (Wi Wo : FVec Ideal S128x128 .f32) (d : Fin 2) (hd : d.val = 0) (k j : Fin 128) :
    stackedWeights Wi Wo (ix3 d k j) = Wi (ix2 k j) :=
  (planes_first _ _ concatenates_S1x128x128_S1x128x128_S2x128x128_d0 d hd k j).trans
    (plane_apply bcast_S128x128_S1x128x128_1_2 Wi k j)

/-- The stacked weights at plane 1: the outgoing direction's weight. -/
theorem stackedWeights_second (Wi Wo : FVec Ideal S128x128 .f32) (d : Fin 2) (hd : d.val = 1) (k j : Fin 128) :
    stackedWeights Wi Wo (ix3 d k j) = Wo (ix2 k j) :=
  (planes_second _ _ concatenates_S1x128x128_S1x128x128_S2x128x128_d0 d hd k j).trans
    (plane_apply bcast_S128x128_S1x128x128_1_2 Wo k j)

/-! ## The messages, read back -/

/-- A message, once row e of each given array and the plane e / 500000 of the weights are known. -/
theorem msgEntry_eq (xj : (⟨2, ![1000000, 128]⟩ : Shape).Idx → EReal) (rel : (⟨2, ![1000000, 64]⟩ : Shape).Idx → EReal)
    (wst : (⟨3, ![2, 128, 128]⟩ : Shape).Idx → EReal) (r : Fin 1000000) (j : Fin 128)
    (x : Fin 128 → EReal) (θ : Fin 64 → EReal) (w : Fin 128 → EReal)
    (hx : ∀ q, xj (ix2 r q) = x q) (hθ : ∀ q, rel (ix2 r q) = θ q)
    (hw : ∀ (d : Fin 2), d.val = r.val / 500000 → ∀ k, wst (ix3 d k j) = w k) :
    Cert.RotConv.msgEntry xj rel wst r j
      = ∑ k : Fin 128, Cert.RotConv.rotEntry x (fun q => θ q * Cert.RotConv.angleUnit) k * w k := by
  unfold Cert.RotConv.msgEntry
  refine Finset.sum_congr rfl fun k _ => ?_
  rw [hw _ rfl k, show (fun q => xj (ix2 r q)) = x from funext hx,
    show (fun q => rel (ix2 r q) * Cert.RotConv.angleUnit) = fun q => θ q * Cert.RotConv.angleUnit from
      funext fun q => congrArg (· * Cert.RotConv.angleUnit) (hθ q)]

/-- Rows 0 … 499999 of the message array: the incoming direction's messages, from the incoming data alone. -/
theorem messages_in_apply (XGi XGo : FVec Ideal S500000x128 .f32) (Ni No : FVec Ideal S500000 .f32)
    (RGi RGo : FVec Ideal S500000x64 .f32) (Wi Wo : FVec Ideal S128x128 .f32) (e : Fin 500000) (j : Fin 128) :
    extractStridedSlice S500000x128 ![0, 0]
        (Cert.RotConv.messages (stackedRows XGi XGo Ni No) (stackedRel RGi RGo) (stackedWeights Wi Wo))
        slices_S1000000x128_S500000x128_0_0 (ix2 e j)
      = ∑ k : Fin 128, Cert.RotConv.rotEntry (fun q => XGi (ix2 e q) * Ni (ix1 e))
          (fun q => RGi (ix2 e q) * Cert.RotConv.angleUnit) k * Wi (ix2 k j) := by
  have he := e.isLt
  refine (rowSlice_apply 0 _ slices_S1000000x128_S500000x128_0_0 e j ⟨e.val, by omega⟩ (Nat.zero_add _).symm).trans ?_
  refine msgEntry_eq _ _ _ ⟨e.val, by omega⟩ j _ _ (fun k => Wi (ix2 k j))
    (fun q => stackedRows_top XGi XGo Ni No _ e rfl q) (fun q => stackedRel_top RGi RGo _ e rfl q)
    (fun d hd k => stackedWeights_first Wi Wo d (by rw [hd]; exact Nat.div_eq_of_lt he) k j)

/-- Rows 500000 … 999999 of the message array: the outgoing direction's messages, from the outgoing data alone. -/
theorem messages_out_apply (XGi XGo : FVec Ideal S500000x128 .f32) (Ni No : FVec Ideal S500000 .f32)
    (RGi RGo : FVec Ideal S500000x64 .f32) (Wi Wo : FVec Ideal S128x128 .f32) (e : Fin 500000) (j : Fin 128) :
    extractStridedSlice S500000x128 ![500000, 0]
        (Cert.RotConv.messages (stackedRows XGi XGo Ni No) (stackedRel RGi RGo) (stackedWeights Wi Wo))
        slices_S1000000x128_S500000x128_500000_0 (ix2 e j)
      = ∑ k : Fin 128, Cert.RotConv.rotEntry (fun q => XGo (ix2 e q) * No (ix1 e))
          (fun q => RGo (ix2 e q) * Cert.RotConv.angleUnit) k * Wo (ix2 k j) := by
  have he := e.isLt
  refine (rowSlice_apply 500000 _ slices_S1000000x128_S500000x128_500000_0 e j ⟨500000 + e.val, by omega⟩ rfl).trans ?_
  refine msgEntry_eq _ _ _ ⟨500000 + e.val, by omega⟩ j _ _ (fun k => Wo (ix2 k j))
    (fun q => stackedRows_bottom XGi XGo Ni No _ e rfl q) (fun q => stackedRel_bottom RGi RGo _ e rfl q)
    (fun d hd k => stackedWeights_second Wi Wo d (by rw [hd]; show (500000 + e.val) / 500000 = 1; omega) k j)

end Cert.KernelIdeal.Messages

end
-- ==== Proof.KernelEntry.lean ====
/-
  What the message region is given, as functions of the argument arrays.

  Before the message region the host runs nine stretches of operations on the launch memory.  From the argument arrays
  alone they compute the region's three operand arrays: the two directions' gathered source rows, each scaled by its
  edges' weights (the product, at the edge's target and source, of the guarded inverse square root of the direction's
  degree vector) and stacked; the two directions' gathered relation rows, stacked; the two directions' weights, stacked
  along a new leading axis.  The two halves of the edge index are written by the first stretch and never again, so they
  are still the argument's two halves after the region.  Each statement is first read off the fold of the nine stretches
  from ANY contents, then taken at the launch memory.
-/
import proofs.«178232_j34394098106413_2_alg».proof.Proof.Gen.KernelIdeal.Frame
import Idealize.ShloMosaic.Lib.StableHlo.Run
import proofs.«178232_j34394098106413_2_alg».proof.Proof.HostTerms
import proofs.«178232_j34394098106413_2_alg».proof.Proof.KernelRead
import proofs.«178232_j34394098106413_2_alg».proof.Proof.LibJoinCongr

set_option maxRecDepth 16384

noncomputable section

namespace Cert.KernelIdeal.Entry

open Cert.KernelIdeal Cert.KernelIdeal.Gen
open Idealize.ShloMosaic Idealize.ShloMosaic.TcCoe Idealize.ShloMosaic.StableHlo Idealize.SL.Sem

attribute [local congr] Idealize.ShloMosaic.JoinCongr.concatenate_pair_congr

variable (m : (ℓ : Loc nD τ sig) → Buf (Elt Ideal) ℓ) (ρ : Dev nD → PrngReg) (c : Dev nD)

/-- The first direction's guarded base: the degree where it is positive, else one (an outlined choice between an array and a scalar spread over it). -/
def where1 (V : Valuation τ sig (Elt Ideal)) : Valuation τ sig (Elt Ideal) := StableHlo.after hostOps0_1 V

theorem where1_result (V : Valuation τ sig (Elt Ideal)) :
    where1 V (no_index (Proc.devRef .tc main_v20))
      = select (V (Proc.devRef .tc main_v19)) (V (Proc.devRef .tc main_v17))
          (broadcastInDim S100000 ![] bcast_S_S100000 (V (Proc.devRef .tc main_cst_3))) := by
  unfold where1
  simp only [hostOps0_1]
  after_results_simp
  rfl

theorem where1_kept (V : Valuation τ sig (Elt Ideal)) {r : Ref sig .tc}
    (h0 : r ≠ main_call0_v0) (h1 : r ≠ main_call0_v1) (h2 : r ≠ main_v20) :
    where1 V (no_index (Proc.devRef .tc r)) = V (Proc.devRef .tc r) := by
  unfold where1
  simp only [hostOps0_1]
  simp (disch := assumption) only [after_cons, after_nil, unary_result_ne', ternary_result_ne']

/-- The first direction's guarded inverse square root: the power where the degree is positive, else zero. -/
def where2 (V : Valuation τ sig (Elt Ideal)) : Valuation τ sig (Elt Ideal) := StableHlo.after hostOps0_3 V

theorem where2_result (V : Valuation τ sig (Elt Ideal)) :
    where2 V (no_index (Proc.devRef .tc main_v25))
      = select (V (Proc.devRef .tc main_v22)) (V (Proc.devRef .tc main_v24))
          (broadcastInDim S100000 ![] bcast_S_S100000 (V (Proc.devRef .tc main_cst_6))) := by
  unfold where2
  simp only [hostOps0_3]
  after_results_simp
  rfl

theorem where2_kept (V : Valuation τ sig (Elt Ideal)) {r : Ref sig .tc}
    (h0 : r ≠ main_call1_v0) (h1 : r ≠ main_call1_v1) (h2 : r ≠ main_v25) :
    where2 V (no_index (Proc.devRef .tc r)) = V (Proc.devRef .tc r) := by
  unfold where2
  simp only [hostOps0_3]
  simp (disch := assumption) only [after_cons, after_nil, unary_result_ne', ternary_result_ne']

/-- The second direction's guarded base. -/
def where3 (V : Valuation τ sig (Elt Ideal)) : Valuation τ sig (Elt Ideal) := StableHlo.after hostOps0_5 V

theorem where3_result (V : Valuation τ sig (Elt Ideal)) :
    where3 V (no_index (Proc.devRef .tc main_v56))
      = select (V (Proc.devRef .tc main_v55)) (V (Proc.devRef .tc main_v53))
          (broadcastInDim S100000 ![] bcast_S_S100000 (V (Proc.devRef .tc main_cst_16))) := by
  unfold where3
  simp only [hostOps0_5]
  after_results_simp
  rfl

theorem where3_kept (V : Valuation τ sig (Elt Ideal)) {r : Ref sig .tc}
    (h0 : r ≠ main_call2_v0) (h1 : r ≠ main_call2_v1) (h2 : r ≠ main_v56) :
    where3 V (no_index (Proc.devRef .tc r)) = V (Proc.devRef .tc r) := by
  unfold where3
  simp only [hostOps0_5]
  simp (disch := assumption) only [after_cons, after_nil, unary_result_ne', ternary_result_ne']

/-- The second direction's guarded inverse square root. -/
def where4 (V : Valuation τ sig (Elt Ideal)) : Valuation τ sig (Elt Ideal) := StableHlo.after hostOps0_7 V

theorem where4_result (V : Valuation τ sig (Elt Ideal)) :
    where4 V (no_index (Proc.devRef .tc main_v61))
      = select (V (Proc.devRef .tc main_v58)) (V (Proc.devRef .tc main_v60))
          (broadcastInDim S100000 ![] bcast_S_S100000 (V (Proc.devRef .tc main_cst_19))) := by
  unfold where4
  simp only [hostOps0_7]
  after_results_simp
  rfl

theorem where4_kept (V : Valuation τ sig (Elt Ideal)) {r : Ref sig .tc}
    (h0 : r ≠ main_call3_v0) (h1 : r ≠ main_call3_v1) (h2 : r ≠ main_v61) :
    where4 V (no_index (Proc.devRef .tc r)) = V (Proc.devRef .tc r) := by
  unfold where4
  simp only [hostOps0_7]
  simp (disch := assumption) only [after_cons, after_nil, unary_result_ne', ternary_result_ne']

/-- The fold of the nine stretches before the message region, from any contents. -/
abbrev entryFold (V : Valuation τ sig (Elt Ideal)) : Valuation τ sig (Elt Ideal) :=
  StableHlo.after hostOps0_8 (where4 (StableHlo.after hostOps0_6 (where3
    (StableHlo.after hostOps0_4 (where2 (StableHlo.after hostOps0_2 (where1
      (StableHlo.after hostOps0 V))))))))

theorem W9_eq : W9 (F := Ideal) m ρ c = entryFold (W0 m ρ c) := rfl

set_option maxHeartbeats 40000000 in
/-- The stacked weights, from any contents. -/
theorem fold_weights (V : Valuation τ sig (Elt Ideal)) :
    entryFold V (Proc.devRef .tc main_v121)
      = Messages.stackedWeights (V (Proc.devRef .tc main_arg5)) (V (Proc.devRef .tc main_arg6)) := by
  simp only [entryFold, hostOps0_8, hostOps0_6, hostOps0_4, hostOps0_2, hostOps0]
  simp (disch := decide) only [after_cons, after_nil,
    nullary_result', unary_result', binary_result', ternary_result', reshape_result',
    nullary_result_ne', unary_result_ne', binary_result_ne', ternary_result_ne', reshape_result_ne',
    where1_result, where2_result, where3_result, where4_result, where1_kept, where2_kept, where3_kept, where4_kept]
  rfl

set_option maxHeartbeats 40000000 in
/-- The stacked relation rows, from any contents. -/
theorem fold_rel (V : Valuation τ sig (Elt Ideal)) :
    entryFold V (Proc.devRef .tc main_v118)
      = Messages.stackedRel
          (HostTerms.gatheredRel (HostTerms.relTable (V (Proc.devRef .tc main_arg3)) (V (Proc.devRef .tc main_arg8))) (HostTerms.firstTypes (V (Proc.devRef .tc main_arg2))))
          (HostTerms.gatheredRel (HostTerms.relTable (V (Proc.devRef .tc main_arg3)) (V (Proc.devRef .tc main_arg8))) (HostTerms.secondTypes (V (Proc.devRef .tc main_arg2)))) := by
  simp only [entryFold, hostOps0_8, hostOps0_6, hostOps0_4, hostOps0_2, hostOps0]
  simp (disch := decide) only [after_cons, after_nil,
    nullary_result', unary_result', binary_result', ternary_result', reshape_result',
    nullary_result_ne', unary_result_ne', binary_result_ne', ternary_result_ne', reshape_result_ne',
    where1_result, where2_result, where3_result, where4_result, where1_kept, where2_kept, where3_kept, where4_kept]
  rfl

set_option maxHeartbeats 40000000 in
/-- The first half of the edge index, from any contents. -/
theorem fold_first_half (V : Valuation τ sig (Elt Ideal)) :
    entryFold V (Proc.devRef .tc main_v1)
      = HostTerms.firstHalf (V (Proc.devRef .tc main_arg1)) := by
  simp only [entryFold, hostOps0_8, hostOps0_6, hostOps0_4, hostOps0_2, hostOps0]
  simp (disch := decide) only [after_cons, after_nil,
    nullary_result', unary_result', binary_result', ternary_result', reshape_result',
    nullary_result_ne', unary_result_ne', binary_result_ne', ternary_result_ne', reshape_result_ne',
    where1_result, where2_result, where3_result, where4_result, where1_kept, where2_kept, where3_kept, where4_kept]
  rfl

set_option maxHeartbeats 40000000 in
/-- The second half of the edge index, from any contents. -/
theorem fold_second_half (V : Valuation τ sig (Elt Ideal)) :
    entryFold V (Proc.devRef .tc main_v2)
      = HostTerms.secondHalf (V (Proc.devRef .tc main_arg1)) := by
  simp only [entryFold, hostOps0_8, hostOps0_6, hostOps0_4, hostOps0_2, hostOps0]
  simp (disch := decide) only [after_cons, after_nil,
    nullary_result', unary_result', binary_result', ternary_result', reshape_result',
    nullary_result_ne', unary_result_ne', binary_result_ne', ternary_result_ne', reshape_result_ne',
    where1_result, where2_result, where3_result, where4_result, where1_kept, where2_kept, where3_kept, where4_kept]
  rfl

set_option maxHeartbeats 40000000 in
/-- The stacked scaled source rows, from any contents. -/
theorem fold_rows (V : Valuation τ sig (Elt Ideal)) :
    entryFold V (Proc.devRef .tc main_v117)
      = Messages.stackedRows
          (HostTerms.gatheredRows (V (Proc.devRef .tc main_arg0)) (HostTerms.firstHalf (V (Proc.devRef .tc main_arg1))))
          (HostTerms.gatheredRows (V (Proc.devRef .tc main_arg0)) (HostTerms.secondHalf (V (Proc.devRef .tc main_arg1))))
          (HostTerms.edgeWeight (HostTerms.invSqrtGuarded (HostTerms.degree (HostTerms.firstHalf (V (Proc.devRef .tc main_arg1))))) (HostTerms.firstHalf (V (Proc.devRef .tc main_arg1))))
          (HostTerms.edgeWeight (HostTerms.invSqrtGuarded (HostTerms.degree (HostTerms.secondHalf (V (Proc.devRef .tc main_arg1))))) (HostTerms.secondHalf (V (Proc.devRef .tc main_arg1)))) := by
  simp only [entryFold, hostOps0_8, hostOps0_6, hostOps0_4, hostOps0_2, hostOps0]
  simp (disch := decide) only [after_cons, after_nil,
    nullary_result', unary_result', binary_result', ternary_result', reshape_result',
    nullary_result_ne', unary_result_ne', binary_result_ne', ternary_result_ne', reshape_result_ne',
    where1_result, where2_result, where3_result, where4_result, where1_kept, where2_kept, where3_kept, where4_kept]
  rfl

/-! ## At the launch memory -/

/-- (1) The message region's weight operand: the two directions' weights, stacked. -/
theorem entry_weights : V9 (F := Ideal) m ρ c main_v121 = Messages.stackedWeights (m ((c : Thread nD τ).loc main_arg5)) (m ((c : Thread nD τ).loc main_arg6)) :=
  fold_weights (W0 m ρ c)

/-- (2) The message region's relation operand: the two directions' gathered relation rows, stacked. -/
theorem entry_rel : V9 (F := Ideal) m ρ c main_v118
    = Messages.stackedRel
          (HostTerms.gatheredRel (HostTerms.relTable (m ((c : Thread nD τ).loc main_arg3)) (m ((c : Thread nD τ).loc main_arg8))) (HostTerms.firstTypes (m ((c : Thread nD τ).loc main_arg2))))
          (HostTerms.gatheredRel (HostTerms.relTable (m ((c : Thread nD τ).loc main_arg3)) (m ((c : Thread nD τ).loc main_arg8))) (HostTerms.secondTypes (m ((c : Thread nD τ).loc main_arg2)))) :=
  fold_rel (W0 m ρ c)

/-- (3) The message region's row operand: the two directions' gathered source rows, each scaled by its edges'
    weights, stacked. -/
theorem entry_rows : V9 (F := Ideal) m ρ c main_v117
    = Messages.stackedRows
          (HostTerms.gatheredRows (m ((c : Thread nD τ).loc main_arg0)) (HostTerms.firstHalf (m ((c : Thread nD τ).loc main_arg1))))
          (HostTerms.gatheredRows (m ((c : Thread nD τ).loc main_arg0)) (HostTerms.secondHalf (m ((c : Thread nD τ).loc main_arg1))))
          (HostTerms.edgeWeight (HostTerms.invSqrtGuarded (HostTerms.degree (HostTerms.firstHalf (m ((c : Thread nD τ).loc main_arg1))))) (HostTerms.firstHalf (m ((c : Thread nD τ).loc main_arg1))))
          (HostTerms.edgeWeight (HostTerms.invSqrtGuarded (HostTerms.degree (HostTerms.secondHalf (m ((c : Thread nD τ).loc main_arg1))))) (HostTerms.secondHalf (m ((c : Thread nD τ).loc main_arg1)))) :=
  fold_rows (W0 m ρ c)

/-- (4) After the message region the first half of the edge index is still the argument's. -/
theorem entry_first_half : W10 (F := Ideal) m ρ c (Proc.devRef .tc main_v1) = HostTerms.firstHalf (m ((c : Thread nD τ).loc main_arg1)) :=
  (W10_of_ne m ρ c main_v1 (by decide)).trans (fold_first_half (W0 m ρ c))

/-- (4) After the message region the second half of the edge index is still the argument's. -/
theorem entry_second_half : W10 (F := Ideal) m ρ c (Proc.devRef .tc main_v2) = HostTerms.secondHalf (m ((c : Thread nD τ).loc main_arg1)) :=
  (W10_of_ne m ρ c main_v2 (by decide)).trans (fold_second_half (W0 m ρ c))

end Cert.KernelIdeal.Entry

end
-- ==== Proof.MessageBridge.lean ====
/-
  The kernel scales before composing and contracting, the reference after: the two agree on real data.

  The kernel multiplies an edge's source row by the edge's weight, then composes the row with the angles and contracts it
  with the direction's weight.  The reference composes and contracts the unscaled row and multiplies the result by the
  edge's weight.  Composition and contraction are linear in the row, so the two agree; that is distributivity, which on
  the extended reals holds among real numbers, so every array involved is assumed real at every entry.  Read entry by
  entry, the kernel's two halves of the message array are then the reference's two directions' weighted messages.
-/
import proofs.«178232_j34394098106413_2_alg».proof.Proof.KernelRead
import proofs.«178232_j34394098106413_2_alg».proof.Proof.RefRead
import proofs.«178232_j34394098106413_2_alg».proof.Proof.Algebra

noncomputable section

open scoped BigOperators

namespace Cert.RotConv.MessageBridge

open Idealize.ShloMosaic Idealize.ShloMosaic.ValueIdx
open Cert.RotConv

/-- Scaling a real row by a real edge weight before composing it with real angles and contracting it with a real weight
    column is scaling the contraction afterwards. -/
theorem scaled_contract (XG : (⟨2, ![500000, 128]⟩ : Shape).Idx → EReal) (RG : (⟨2, ![500000, 64]⟩ : Shape).Idx → EReal)
    (W : (⟨2, ![128, 128]⟩ : Shape).Idx → EReal) (N : (⟨1, ![500000]⟩ : Shape).Idx → EReal)
    (hX : ∀ i, ∃ r : ℝ, XG i = (r : EReal)) (hR : ∀ i, ∃ r : ℝ, RG i = (r : EReal))
    (hW : ∀ i, ∃ r : ℝ, W i = (r : EReal)) (hN : ∀ i, ∃ r : ℝ, N i = (r : EReal)) (e : Fin 500000) (j : Fin 128) :
    ∑ k : Fin 128, rotEntry (fun q => XG (ix2 e q) * N (ix1 e)) (fun q => RG (ix2 e q) * angleUnit) k * W (ix2 k j)
      = (∑ k : Fin 128, rotEntry (fun q => XG (ix2 e q)) (fun q => RG (ix2 e q) * angleUnit) k * W (ix2 k j)) * N (ix1 e) := by
  choose xg hxg using hX
  choose rg hrg using hR
  choose w hw using hW
  choose n hn using hN
  have h1 : (fun q : Fin 128 => XG (ix2 e q) * N (ix1 e))
      = fun q : Fin 128 => ((xg (ix2 e q) : ℝ) : EReal) * ((n (ix1 e) : ℝ) : EReal) :=
    funext fun q => by rw [hxg, hn]
  have h2 : (fun q : Fin 64 => RG (ix2 e q) * angleUnit)
      = fun q : Fin 64 => ((rg (ix2 e q) * (33554432 / 16021061) : ℝ) : EReal) :=
    funext fun q => by rw [hrg, EReal.coe_mul]; rfl
  have h3 : (fun q : Fin 128 => XG (ix2 e q)) = fun q : Fin 128 => ((xg (ix2 e q) : ℝ) : EReal) :=
    funext fun q => hxg _
  have key := contract_scale (fun q => xg (ix2 e q)) (fun q => rg (ix2 e q) * (33554432 / 16021061)) (n (ix1 e))
    (fun k => w (ix2 k j))
  rw [h1, h2, h3, hn (ix1 e)]
  have h4 : ∀ k : Fin 128, W (ix2 k j) = ((w (ix2 k j) : ℝ) : EReal) := fun k => hw _
  simp only [h4]
  exact key

/-- Rows 0 … 499999 of the kernel's message array are the reference's incoming direction's weighted messages. -/
theorem messages_in_eq [Cert.KernelIdeal.Facts₀] [Cert.ReferenceIdeal.Facts₀]
    (XGi XGo : FVec Ideal Cert.KernelIdeal.S500000x128 .f32) (Ni No : FVec Ideal Cert.KernelIdeal.S500000 .f32)
    (RGi RGo : FVec Ideal Cert.KernelIdeal.S500000x64 .f32) (Wi Wo : FVec Ideal Cert.KernelIdeal.S128x128 .f32)
    (hX : ∀ i, ∃ r : ℝ, XGi i = (r : EReal)) (hR : ∀ i, ∃ r : ℝ, RGi i = (r : EReal))
    (hW : ∀ i, ∃ r : ℝ, Wi i = (r : EReal)) (hN : ∀ i, ∃ r : ℝ, Ni i = (r : EReal)) :
    extractStridedSlice Cert.KernelIdeal.S500000x128 ![0, 0]
        (Cert.RotConv.messages (Cert.KernelIdeal.Messages.stackedRows XGi XGo Ni No)
          (Cert.KernelIdeal.Messages.stackedRel RGi RGo) (Cert.KernelIdeal.Messages.stackedWeights Wi Wo))
        Cert.KernelIdeal.Facts₀.slices_S1000000x128_S500000x128_0_0
      = Cert.ReferenceIdeal.Messages.edgeMessages XGi RGi Wi Ni := by
  funext i
  obtain ⟨e, j, rfl⟩ : ∃ e j, i = ix2 e j := ⟨_, _, eq_ix2 i⟩
  exact (Cert.KernelIdeal.Messages.messages_in_apply XGi XGo Ni No RGi RGo Wi Wo e j).trans
    ((scaled_contract XGi RGi Wi Ni hX hR hW hN e j).trans
      (Cert.ReferenceIdeal.Messages.edgeMessages_apply XGi RGi Wi Ni e j).symm)

/-- Rows 500000 … 999999 of the kernel's message array are the reference's outgoing direction's weighted messages. -/
theorem messages_out_eq [Cert.KernelIdeal.Facts₀] [Cert.ReferenceIdeal.Facts₀]
    (XGi XGo : FVec Ideal Cert.KernelIdeal.S500000x128 .f32) (Ni No : FVec Ideal Cert.KernelIdeal.S500000 .f32)
    (RGi RGo : FVec Ideal Cert.KernelIdeal.S500000x64 .f32) (Wi Wo : FVec Ideal Cert.KernelIdeal.S128x128 .f32)
    (hX : ∀ i, ∃ r : ℝ, XGo i = (r : EReal)) (hR : ∀ i, ∃ r : ℝ, RGo i = (r : EReal))
    (hW : ∀ i, ∃ r : ℝ, Wo i = (r : EReal)) (hN : ∀ i, ∃ r : ℝ, No i = (r : EReal)) :
    extractStridedSlice Cert.KernelIdeal.S500000x128 ![500000, 0]
        (Cert.RotConv.messages (Cert.KernelIdeal.Messages.stackedRows XGi XGo Ni No)
          (Cert.KernelIdeal.Messages.stackedRel RGi RGo) (Cert.KernelIdeal.Messages.stackedWeights Wi Wo))
        Cert.KernelIdeal.Facts₀.slices_S1000000x128_S500000x128_500000_0
      = Cert.ReferenceIdeal.Messages.edgeMessages XGo RGo Wo No := by
  funext i
  obtain ⟨e, j, rfl⟩ : ∃ e j, i = ix2 e j := ⟨_, _, eq_ix2 i⟩
  exact (Cert.KernelIdeal.Messages.messages_out_apply XGi XGo Ni No RGi RGo Wi Wo e j).trans
    ((scaled_contract XGo RGo Wo No hX hR hW hN e j).trans
      (Cert.ReferenceIdeal.Messages.edgeMessages_apply XGo RGo Wo No e j).symm)

end Cert.RotConv.MessageBridge

end
-- ==== Proof.UpdateBridge.lean ====
/-
  The entity update of the specification is the reference's last host operations.

  The reference ends with ((A + B) + L) · c, where A and B are the two directions' aggregated messages, L the self-loop
  messages — entity n's row composed with the angles of the last row of the relation table [rel_embed ; loop_rel],
  contracted with the loop weight — and c the f32 word nearest to one third spread over the array.  The last row of the
  table is the loop relation's one row, so entry (n, j) of L is the self-loop message of the specification, and the
  spread constant reads the same extended real at every index: the two arrays agree entry by entry.
-/
import proofs.«178232_j34394098106413_2_alg».proof.Proof.RefRead
import proofs.«178232_j34394098106413_2_alg».proof.Proof.Spec

noncomputable section

namespace Cert.RotConv.UpdateBridge

open Idealize.ShloMosaic Idealize.ShloMosaic.ValueIdx
open Cert.ReferenceIdeal Cert.ReferenceIdeal.Facts₀ Cert.ReferenceIdeal.Messages Cert.RotConv
open scoped BigOperators

variable [Cert.ReferenceIdeal.Facts₀]

/-- The self-loop message of the specification at (n, j) is the reference's, the loop relation's row read as the last
    row of the relation table. -/
theorem loopEntry_eq_host (X : FVec Ideal S100000x128 .f32) (a3 : FVec Ideal S500x64 .f32) (LR : FVec Ideal S1x64 .f32)
    (Wl : FVec Ideal S128x128 .f32) (n : Fin 100000) (j : Fin 128) :
    loopEntry X LR Wl n j = loopMessages X (lastRelRow a3 LR) Wl (ix2 n j) := by
  refine ((loopMessages_apply X (lastRelRow a3 LR) Wl n j).trans ?_).symm
  unfold loopEntry
  refine Finset.sum_congr rfl fun k _ => ?_
  refine congrArg (· * Wl (ix2 k j)) ?_
  exact congrArg (fun θ => rotEntry (fun q => X (ix2 n q)) θ k)
    (funext fun q => congrArg (· * angleUnit) (lastRelRow_apply a3 LR q))

/-- THE UPDATE: a third of (A + B + self-loop messages), in the specification's spelling and in the reference's. -/
theorem update_eq_host (X A B : FVec Ideal S100000x128 .f32) (a3 : FVec Ideal S500x64 .f32) (LR : FVec Ideal S1x64 .f32)
    (Wl : FVec Ideal S128x128 .f32) :
    Cert.RotConv.update X A B LR Wl
      = mulf (addf (addf A B) (Cert.ReferenceIdeal.Messages.loopMessages X (Cert.ReferenceIdeal.Messages.lastRelRow a3 LR) Wl))
          (broadcastInDim S100000x128 ![] bcast_S_S100000x128 (constant (F := Ideal) S_ .f32 0x3EAAAAAB#32)) := by
  funext i
  obtain ⟨n, j, rfl⟩ : ∃ (n : Fin 100000) (j : Fin 128), i = ix2 n j := ⟨i 0, i 1, eq_ix2 i⟩
  show ((A (ix2 n j) + B (ix2 n j)) + loopEntry X LR Wl n j) * third
    = ((A (ix2 n j) + B (ix2 n j)) + loopMessages X (lastRelRow a3 LR) Wl (ix2 n j)) * Ideal.ofBits .f32 0x3EAAAAAB#32
  rw [loopEntry_eq_host X a3 LR Wl n j]
  rfl

end Cert.RotConv.UpdateBridge

end
-- ==== Proof.LibVecScatter.lean ====
/-
  Values added into a vector at one index per edge, read at an entry.

  `x.at[idx].add(u)` for a vector `x : [N]`, one index per edge `idx : [E, 1]` and one value per edge `u : [E]`:
  over the extended reals entry `n` of the result is the operand's entry plus the sum, over the edges whose index
  read as a signed integer IS `n`, of the edge's value. An edge whose index is negative or at least `N`
  contributes to no entry. (Counting the edges into each node is the case of a zero operand and all values one.)
-/
import Idealize.ShloMosaic.Lib.ValueIdx
import Idealize.ShloMosaic.Lib.Affine

noncomputable section

open scoped BigOperators

namespace Idealize.ShloMosaic.VecScatter

open Idealize.ShloMosaic Idealize.ShloMosaic.ValueIdx

/-- The dimension numbers of `x.at[idx].add(u)` for a vector `x : [N]`, one index per edge and one value per edge. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An operand axis receives a window axis of the updates exactly when it is not an inserted one. -/
theorem mem_sKept {s si u : Shape} (d : ScatterDims s si u) (a : Fin s.rank) : a ∈ d.sKept ↔ a ∉ d.insertedWindowDims := by
  simp [ScatterDims.sKept, Shape.kept, List.mem_filter, List.mem_finRange]

/-- A sum over the indices of a vector of length `n`, coordinate by coordinate. -/
theorem sum_vecIdx {M : Type*} [AddCommMonoid M] {n : Nat} (f : (⟨1, ![n]⟩ : Shape).Idx → M) :
    ∑ j, f j = ∑ i : Fin n, f (ix1 i) :=
  Fintype.sum_equiv
    { toFun := fun j => j 0, invFun := fun i => ix1 i, left_inv := fun j => (eq_ix1 j).symm, right_inv := fun _ => rfl }
    f (fun i => f (ix1 i)) fun j => congrArg f (eq_ix1 j)

/-- Where edge `e`'s value lands: entry `t` when the edge's index read signed is an entry `t` of the vector;
    nowhere when it is negative or at least `N`. -/
theorem vecScatter_resultIdx? {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx
      = if h : 0 ≤ (idx (ix2 e (0 : Fin 1))).toInt ∧ (idx (ix2 e (0 : Fin 1))).toInt < N then
          some (ix1 ⟨(idx (ix2 e (0 : Fin 1))).toInt.toNat, by omega⟩)
        else none := by
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl), hsi]
  have hw0 : (vecScatter N E wf).window (ix1 e) 0 = 0 := by
    unfold ScatterDims.window
    rw [dif_neg (show ¬ (0 : Fin 1) ∈ (vecScatter N E wf).sKept from
      fun h => (mem_sKept _ _).mp h (List.mem_singleton.mpr rfl))]
  unfold ScatterDims.resultIdx?
  by_cases h : 0 ≤ (idx (ix2 e (0 : Fin 1))).toInt ∧ (idx (ix2 e (0 : Fin 1))).toInt < N
  · have hall : ∀ a : Fin 1, 0 ≤ (vecScatter N E wf).start (ix1 e) idx a + (vecScatter N E wf).window (ix1 e) a
        ∧ (vecScatter N E wf).start (ix1 e) idx a + (vecScatter N E wf).window (ix1 e) a
          < ((⟨1, ![N]⟩ : Shape).size a : ℤ) := by
      intro a
      match a with
      | ⟨0, _⟩ =>
        show 0 ≤ (vecScatter N E wf).start (ix1 e) idx 0 + (vecScatter N E wf).window (ix1 e) 0
          ∧ (vecScatter N E wf).start (ix1 e) idx 0 + (vecScatter N E wf).window (ix1 e) 0 < ((⟨1, ![N]⟩ : Shape).size 0 : ℤ)
        rw [hs0, hw0]
        refine ⟨by omega, ?_⟩
        show (idx (ix2 e (0 : Fin 1))).toInt + ((0 : ℕ) : ℤ) < (N : ℤ)
        omega
    rw [dif_pos hall, dif_pos h]
    refine congrArg some (funext fun a => Fin.ext ?_)
    match a with
    | ⟨0, _⟩ =>
      show ((vecScatter N E wf).start (ix1 e) idx 0 + (vecScatter N E wf).window (ix1 e) 0).toNat = _
      rw [hs0, hw0]; simp
  · rw [dif_neg h, dif_neg]
    intro hall
    have h0 := hall 0
    rw [hs0, hw0] at h0
    apply h
    refine ⟨by omega, ?_⟩
    have h02 : (idx (ix2 e (0 : Fin 1))).toInt + ((0 : ℕ) : ℤ) < (N : ℤ) := h0.2
    omega

/-- Entry `n` of a vector after values are added into it, over the extended reals: the entry before, plus the sum
    over the edges whose index read signed is `n` of the edge's value. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n)
        + ∑ e ∈ Finset.univ.filter (fun e : Fin E => (idx (ix2 e (0 : Fin 1))).toInt = (n.val : ℤ)), upd (ix1 e) := by
  unfold Ideal.hostScatterAdd
  refine congrArg (x (ix1 n) + ·) ?_
  rw [Finset.sum_filter, Finset.sum_filter, sum_vecIdx]
  refine Finset.sum_congr rfl fun e _ => ?_
  have hiff : ((vecScatter N E wf).resultIdx? (ix1 e) idx = some (ix1 n))
      ↔ (idx (ix2 e (0 : Fin 1))).toInt = (n.val : ℤ) := by
    rw [vecScatter_resultIdx?]
    by_cases h : 0 ≤ (idx (ix2 e (0 : Fin 1))).toInt ∧ (idx (ix2 e (0 : Fin 1))).toInt < N
    · rw [dif_pos h, Option.some_inj]
      constructor
      · intro h1
        have h2 : (idx (ix2 e (0 : Fin 1))).toInt.toNat = n.val := congrArg Fin.val (congrFun h1 0)
        omega
      · intro h1
        refine congrArg ix1 (Fin.ext ?_)
        show (idx (ix2 e (0 : Fin 1))).toInt.toNat = n.val
        omega
    · rw [dif_neg h]
      constructor
      · intro hh; exact absurd hh (by simp)
      · intro h1
        exfalso; apply h
        have := n.isLt
        omega
  by_cases ht : (idx (ix2 e (0 : Fin 1))).toInt = (n.val : ℤ)
  · rw [if_pos ht, if_pos (hiff.mpr ht)]
  · rw [if_neg ht, if_neg (fun hh => ht (hiff.mp hh))]

/-- The same for the host's accumulating scatter at the ideal instance, which is that sum. -/
theorem host_scatterAdd_vec_apply {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w)
    (upd : FVec Ideal ⟨1, ![E]⟩ .f32) (n : Fin N) :
    Host.scatterAdd (vecScatter N E wf) x idx upd (ix1 n)
      = x (ix1 n)
        + ∑ e ∈ Finset.univ.filter (fun e : Fin E => (idx (ix2 e (0 : Fin 1))).toInt = (n.val : ℤ)), upd (ix1 e) :=
  scatterAdd_vec_apply wf x idx upd n

end Idealize.ShloMosaic.VecScatter

end
-- ==== Proof.LibEntries.lean ====
/-
  Every entry of a gathered or concatenated array is an entry of an operand, so any property of all operand entries
  passes to the result.

  A gather reads, at each result index, the operand at one computed index; a concatenation reads, at each result
  index, one of the listed operands (the one whose span along the joined axis holds the index) at one index. Neither
  computes on the values it moves. Hence a predicate that holds of every entry of every operand holds of every entry
  of the result, whatever the index arithmetic is.
-/
import Idealize.ShloMosaic.PureOps.ShapeOps

namespace Idealize.ShloMosaic.Entries

open Idealize.ShloMosaic

variable {α : Type} {P : α → Prop}

/-- Every entry of a gather is an entry of its operand. -/
theorem gather_entry {s si t : Shape} {w : Nat} (d : GatherDims s si t) (x : s.Idx → α) (idx : IVec si w)
    (hx : ∀ i, P (x i)) : ∀ j, P (Host.gather d x idx j) :=
  fun j => hx (d.operandIdx j idx)

/-- Every entry of a concatenation is an entry of one of the listed operands. -/
theorem concatenate_entry (t : Shape) (a : Fin t.rank) (xs : List ((s : Shape) × (s.Idx → α)))
    (h : Shape.Concatenates (xs.map (·.1)) t a) (hxs : ∀ p ∈ xs, ∀ i, P (p.2 i)) :
    ∀ j, P (concatenate t a xs h j) := by
  intro j
  unfold concatenate
  dsimp only
  exact hxs _ (List.getElem_mem _) _

/-- The concatenation of two operands: a property of every entry of each holds of every entry of the result. -/
theorem concatenate_pair_entry (t : Shape) (a : Fin t.rank) {sA sB : Shape} (A : sA.Idx → α) (B : sB.Idx → α)
    (h : Shape.Concatenates (([⟨sA, A⟩, ⟨sB, B⟩] : List ((s : Shape) × (s.Idx → α))).map (·.1)) t a)
    (hA : ∀ i, P (A i)) (hB : ∀ i, P (B i)) : ∀ j, P (concatenate t a [⟨sA, A⟩, ⟨sB, B⟩] h j) := by
  refine concatenate_entry t a _ h ?_
  intro p hp
  rcases List.mem_cons.1 hp with rfl | hp
  · exact hA
  rcases List.mem_cons.1 hp with rfl | hp
  · exact hB
  · exact absurd hp (List.not_mem_nil)

end Idealize.ShloMosaic.Entries
-- ==== Proof.NormFacts.lean ====
/-
  The normalization's arithmetic stays among the reals, and its guard is redundant.

  The degree vector of the graph is ones added into zeros at one index per edge, so each entry is a finite sum of reals,
  a real.  The inverse square root is select(deg > 0, deg ^ (−1/2), 0): a power of two reals is the real power, so where
  the condition holds the entry is a real, and elsewhere it is the entry of a real vector.  An edge's weight is a product
  of two gathered entries; a gather and a concatenation only move entries, so they keep every entry real, and a product
  of reals is a real.  Finally, replacing the base of the power, where the condition fails, by anything at all changes
  nothing, because the outer select discards the power exactly there.
-/
import proofs.«178232_j34394098106413_2_alg».proof.KernelIdeal
import proofs.«178232_j34394098106413_2_alg».proof.Proof.LibVecScatter
import proofs.«178232_j34394098106413_2_alg».proof.Proof.LibEntries
import Idealize.ShloMosaic.PureOps.Ideal
import Idealize.ShloMosaic.Lib.ValueIdx

noncomputable section

open scoped BigOperators

namespace Cert.RotConv.NormFacts

open Idealize.ShloMosaic Idealize.ShloMosaic.ValueIdx
open Cert.KernelIdeal

/-! ## The guard on the base of the power is redundant -/

/-- select(c, (select(c, deg, one)) ^ e, z) = select(c, deg ^ e, z): where c holds the inner select is deg, and where it
    fails the power is discarded. -/
theorem invSqrt_guard {s : Shape} (c : IVec s 1) (deg one e z : FVec Ideal s .f32) :
    select c (Host.powf (select c deg one) e) z = select c (Host.powf deg e) z := by
  funext i
  rw [select_apply, select_apply]
  rcases BitVec.eq_zero_or_eq_one (c i) with h | h
  · rw [h, select_zero, select_zero]
  · rw [h, select_one, select_one]
    show FloatOps.hostPowf (select c deg one i) (e i) = FloatOps.hostPowf (deg i) (e i)
    rw [select_apply, h, select_one]

/-! ## Moving entries keeps them real -/

/-- A vector gathered at one index per edge: every entry is an entry of the vector. -/
theorem gather_vec_real [Facts₀] (t : FVec Ideal S100000 .f32) (idx : IVec S500000x1 32)
    (ht : ∀ i, ∃ r : ℝ, t i = (r : EReal)) (j : S500000.Idx) :
    ∃ r : ℝ, Host.gather gather_S100000_S500000x1_S500000_n_0_n_n_0_1_1 t idx j = (r : EReal) :=
  Entries.gather_entry (P := fun x : EReal => ∃ r : ℝ, x = (r : EReal)) _ t idx ht j

/-- Entity rows gathered at one index per edge: every entry is an entry of the table. -/
theorem gather_rows128_real [Facts₀] (t : FVec Ideal S100000x128 .f32) (idx : IVec S500000x1 32)
    (ht : ∀ i, ∃ r : ℝ, t i = (r : EReal)) (j : S500000x128.Idx) :
    ∃ r : ℝ, Host.gather gather_S100000x128_S500000x1_S500000x128_1_0_n_n_0_1_1128 t idx j = (r : EReal) :=
  Entries.gather_entry (P := fun x : EReal => ∃ r : ℝ, x = (r : EReal)) _ t idx ht j

/-- Relation rows gathered at one index per edge: every entry is an entry of the table. -/
theorem gather_rows64_real [Facts₀] (t : FVec Ideal S501x64 .f32) (idx : IVec S500000x1 32)
    (ht : ∀ i, ∃ r : ℝ, t i = (r : EReal)) (j : S500000x64.Idx) :
    ∃ r : ℝ, Host.gather gather_S501x64_S500000x1_S500000x64_1_0_n_n_0_1_164 t idx j = (r : EReal) :=
  Entries.gather_entry (P := fun x : EReal => ∃ r : ℝ, x = (r : EReal)) _ t idx ht j

/-- The relation table with one more row appended: every entry is an entry of the table or of the row. -/
theorem concat_real [Facts₀] (a : FVec Ideal S500x64 .f32) (b : FVec Ideal S1x64 .f32)
    (ha : ∀ i, ∃ r : ℝ, a i = (r : EReal)) (hb : ∀ i, ∃ r : ℝ, b i = (r : EReal)) (j : S501x64.Idx) :
    ∃ r : ℝ, concatenate S501x64 0 [⟨S500x64, a⟩, ⟨S1x64, b⟩] Facts₀.concatenates_S500x64_S1x64_S501x64_d0 j = (r : EReal) :=
  Entries.concatenate_pair_entry (P := fun x : EReal => ∃ r : ℝ, x = (r : EReal)) S501x64 0 a b _ ha hb j

/-! ## The power, the product and the constants -/

/-- select(c, deg ^ e, z) of real vectors is real at every entry: a power of two reals is the real power. -/
theorem invSqrt_real {s : Shape} (c : IVec s 1) (deg e z : FVec Ideal s .f32)
    (hd : ∀ i, ∃ r : ℝ, deg i = (r : EReal)) (he : ∀ i, ∃ r : ℝ, e i = (r : EReal))
    (hz : ∀ i, ∃ r : ℝ, z i = (r : EReal)) (i : s.Idx) :
    ∃ r : ℝ, select c (Host.powf deg e) z i = (r : EReal) := by
  rw [select_apply]
  rcases BitVec.eq_zero_or_eq_one (c i) with h | h
  · rw [h, select_zero]; exact hz i
  · rw [h, select_one]
    obtain ⟨a, ha⟩ := hd i
    obtain ⟨b, hb⟩ := he i
    refine ⟨Real.rpow a b, ?_⟩
    show Ideal.pow (deg i) (e i) = _
    rw [ha, hb]; rfl

/-- A product of real vectors is real at every entry. -/
theorem mulf_real {s : Shape} (a b : FVec Ideal s .f32) (ha : ∀ i, ∃ r : ℝ, a i = (r : EReal))
    (hb : ∀ i, ∃ r : ℝ, b i = (r : EReal)) (i : s.Idx) : ∃ r : ℝ, mulf a b i = (r : EReal) := by
  obtain ⟨x, hx⟩ := ha i
  obtain ⟨y, hy⟩ := hb i
  refine ⟨x * y, ?_⟩
  rw [mulf_apply, hx, hy, EReal.coe_mul]

/-- A splat of a word that denotes a real is real at every index. -/
theorem splat_real (w : BitVec 32) {s : Shape} (hb : S_.BroadcastsInDim s (![] : Fin 0 → Fin s.rank))
    (hw : ∃ r : ℝ, Ideal.ofBits .f32 w = (r : EReal)) (i : s.Idx) :
    ∃ r : ℝ, broadcastInDim s ![] hb (constant (F := Ideal) S_ .f32 w) i = (r : EReal) := hw

/-- The word of 0.0 denotes the real 0. -/
theorem word_zero : ∃ r : ℝ, Ideal.ofBits .f32 0x00000000#32 = (r : EReal) :=
  ⟨0, by simp [Ideal.ofBits, Ideal.ieee]⟩
/-- The word of 1.0 denotes the real 1. -/
theorem word_one : ∃ r : ℝ, Ideal.ofBits .f32 0x3F800000#32 = (r : EReal) :=
  ⟨1, by simp [Ideal.ofBits, Ideal.ieee, -EReal.coe_mul]; norm_num⟩
/-- The word of −0.5 denotes the real −1/2. -/
theorem word_neg_half : ∃ r : ℝ, Ideal.ofBits .f32 0xBF000000#32 = (r : EReal) :=
  ⟨-(1 / 2), by simp [Ideal.ofBits, Ideal.ieee, -EReal.coe_mul]; norm_num⟩

/-! ## The degree vector -/

/-- A finite sum of reals is a real. -/
theorem sum_real {ι : Type} (S : Finset ι) (f : ι → EReal) (hf : ∀ e, ∃ r : ℝ, f e = (r : EReal)) :
    ∃ r : ℝ, ∑ e ∈ S, f e = (r : EReal) := by
  classical
  induction S using Finset.induction_on with
  | empty => exact ⟨0, by simp⟩
  | insert a S ha ih =>
    obtain ⟨x, hx⟩ := hf a
    obtain ⟨y, hy⟩ := ih
    exact ⟨x + y, by rw [Finset.sum_insert ha, hx, hy, EReal.coe_add]⟩

/-- Real values added into a real vector at one index per edge leave every entry real: the entry is the entry before
    plus the sum of the values of the edges that name it. -/
theorem degree_real [Facts₀] (idx : IVec S500000x1 32) (z : FVec Ideal S100000 .f32) (u : FVec Ideal S500000 .f32)
    (hz : ∀ i, ∃ r : ℝ, z i = (r : EReal)) (hu : ∀ i, ∃ r : ℝ, u i = (r : EReal)) (i : S100000.Idx) :
    ∃ r : ℝ, Host.scatterAdd (F := Ideal) scatter_S100000_S500000x1_S500000_n_0_0_1 z idx u i = (r : EReal) := by
  rw [eq_ix1 i]
  obtain ⟨x, hx⟩ := hz (ix1 (i 0))
  obtain ⟨y, hy⟩ := sum_real
    (Finset.univ.filter (fun e : Fin 500000 => (idx (ix2 e (0 : Fin 1))).toInt = (((i 0).val : ℕ) : ℤ)))
    (fun e => u (ix1 e)) (fun e => hu (ix1 e))
  refine ⟨x + y, ?_⟩
  refine (VecScatter.host_scatterAdd_vec_apply (N := 100000) (E := 500000)
    Facts₀.scatter_S100000_S500000x1_S500000_n_0_0_1_wf z idx u (i 0)).trans ?_
  rw [hx, hy, EReal.coe_add]

end Cert.RotConv.NormFacts

end
-- ==== Proof.StageFacts.lean ====
/-
  The shared host stages stay among the reals, and the guarded inverse square root is the unguarded one.

  The degree vector counts edges (ones added into zeros), so it is real at every entity; its inverse square root is a
  real power of a real where the degree is positive and 0 elsewhere, so it is real; an edge's weight is the product of
  two of its entries, so it is real.  Gathered rows of a real table are entries of the table, so they are real; the
  relation table is two real arrays stacked, so its gathered rows are real too.  Guarding the base of the power by the
  test the outer select makes changes nothing.
-/
import proofs.«178232_j34394098106413_2_alg».proof.Proof.HostTerms
import proofs.«178232_j34394098106413_2_alg».proof.Proof.NormFacts

noncomputable section

namespace Cert.RotConv.StageFacts

open Idealize.ShloMosaic
open Cert.KernelIdeal Cert.RotConv.NormFacts

variable [Facts₀]
open Facts₀

/-- The inverse square root with the base of the power guarded is the unguarded one. -/
theorem invSqrtGuarded_eq (deg : FVec Ideal S100000 .f32) : HostTerms.invSqrtGuarded deg = HostTerms.invSqrt deg :=
  invSqrt_guard (cmpf .ogt deg (HostTerms.splat100k 0x00000000#32)) deg (HostTerms.splat100k 0x3F800000#32)
    (HostTerms.splat100k 0xBF000000#32) (HostTerms.splat100k 0x00000000#32)

/-- The edges' source rows of a real entity table are real. -/
theorem gatheredRows_real (X : FVec Ideal S100000x128 .f32) (hX : ∀ i, ∃ r : ℝ, X i = (r : EReal))
    (half : IVec S2x500000 32) : ∀ i, ∃ r : ℝ, HostTerms.gatheredRows X half i = (r : EReal) :=
  gather_rows128_real X (HostTerms.signedIndex (HostTerms.sourceRow half)) hX

/-- The edges' relation rows of a real relation table (two real arrays stacked) are real. -/
theorem gatheredRel_real (a3 : FVec Ideal S500x64 .f32) (a8 : FVec Ideal S1x64 .f32)
    (h3 : ∀ i, ∃ r : ℝ, a3 i = (r : EReal)) (h8 : ∀ i, ∃ r : ℝ, a8 i = (r : EReal)) (types : IVec S500000 32) :
    ∀ i, ∃ r : ℝ, HostTerms.gatheredRel (HostTerms.relTable a3 a8) types i = (r : EReal) :=
  gather_rows64_real (HostTerms.relTable a3 a8) (HostTerms.signedType types) (concat_real a3 a8 h3 h8)

/-- A direction's degree vector is real at every entity. -/
theorem hostDegree_real (half : IVec S2x500000 32) : ∀ i, ∃ r : ℝ, HostTerms.degree half i = (r : EReal) :=
  degree_real (HostTerms.signedIndex (HostTerms.targetRow half)) (HostTerms.splat100k 0x00000000#32)
    (broadcastInDim S500000 ![] bcast_S_S500000 (constant (F := Ideal) S_ .f32 0x3F800000#32))
    (splat_real 0x00000000#32 bcast_S_S100000 word_zero) (splat_real 0x3F800000#32 bcast_S_S500000 word_one)

/-- The inverse square root of a real vector is real at every entity. -/
theorem hostInvSqrt_real (deg : FVec Ideal S100000 .f32) (hd : ∀ i, ∃ r : ℝ, deg i = (r : EReal)) :
    ∀ i, ∃ r : ℝ, HostTerms.invSqrt deg i = (r : EReal) :=
  invSqrt_real (cmpf .ogt deg (HostTerms.splat100k 0x00000000#32)) deg (HostTerms.splat100k 0xBF000000#32)
    (HostTerms.splat100k 0x00000000#32) hd (splat_real 0xBF000000#32 bcast_S_S100000 word_neg_half)
    (splat_real 0x00000000#32 bcast_S_S100000 word_zero)

/-- An edge's weight is real. -/
theorem edgeWeight_real (half : IVec S2x500000 32) :
    ∀ i, ∃ r : ℝ, HostTerms.edgeWeight (HostTerms.invSqrt (HostTerms.degree half)) half i = (r : EReal) :=
  mulf_real _ _
    (gather_vec_real (HostTerms.invSqrt (HostTerms.degree half)) (HostTerms.signedIndex (HostTerms.targetRow half))
      (hostInvSqrt_real _ (hostDegree_real half)))
    (gather_vec_real (HostTerms.invSqrt (HostTerms.degree half)) (HostTerms.signedIndex (HostTerms.sourceRow half))
      (hostInvSqrt_real _ (hostDegree_real half)))

end Cert.RotConv.StageFacts

end
-- ==== Proof.Bridge.lean ====
/-
  The idealized kernel's two results are the reference's functions of the argument arrays.

  First result.  The update region returns a third of (incoming aggregate + outgoing aggregate + self-loop message).
  Each aggregate adds, at the edges' targets, one half of the message region's array; that half is, edge by edge, the
  source row scaled by the edge's weight, composed with the relation's angles and contracted with the direction's
  weight.  The reference contracts the unscaled composed row and scales afterwards.  The edge's weight is a real
  number (degrees count edges; the inverse square root of a real is real) and so are the gathered rows and the
  weights under the precondition, so the two agree by distributivity; guarding the base of the power changes nothing;
  and the self-loop term and the final scale are the reference's own.
  Second result.  Both programs multiply the relation table by w_rel and drop the last row.
-/
import proofs.«178232_j34394098106413_2_alg».proof.Proof.KernelChain
import proofs.«178232_j34394098106413_2_alg».proof.Proof.Aggregates
import proofs.«178232_j34394098106413_2_alg».proof.Proof.KernelEntry
import proofs.«178232_j34394098106413_2_alg».proof.Proof.MessageBridge
import proofs.«178232_j34394098106413_2_alg».proof.Proof.UpdateBridge
import proofs.«178232_j34394098106413_2_alg».proof.Proof.StageFacts
import proofs.«178232_j34394098106413_2_alg».proof.Proof.RefValue
import proofs.«178232_j34394098106413_2_alg».proof.Proof.Gen.ReferenceIdeal

set_option maxRecDepth 16384

noncomputable section

namespace Cert.Proof.Bridge

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The first result: the reference's function of the kernel's own argument arrays, every float argument real. -/
theorem kernel_out
    (h0 : ∀ i, ∃ r : ℝ, m ((c.tc : Thread nD τ).loc main_arg0) i = (r : EReal))
    (h3 : ∀ i, ∃ r : ℝ, m ((c.tc : Thread nD τ).loc main_arg3) i = (r : EReal))
    (h5 : ∀ i, ∃ r : ℝ, m ((c.tc : Thread nD τ).loc main_arg5) i = (r : EReal))
    (h6 : ∀ i, ∃ r : ℝ, m ((c.tc : Thread nD τ).loc main_arg6) i = (r : EReal))
    (h8 : ∀ i, ∃ r : ℝ, m ((c.tc : Thread nD τ).loc main_arg8) i = (r : EReal)) :
    W13 (F := Ideal) m ρ c (Proc.devRef .tc main_v145)
      = Cert.ReferenceIdeal.RefValue.refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg8)) := by
  rw [Cert.KernelIdeal.Chain.result_update, Cert.KernelIdeal.Aggregates.in_aggregate, Cert.KernelIdeal.Aggregates.out_aggregate,
    Cert.KernelIdeal.Entry.entry_first_half, Cert.KernelIdeal.Entry.entry_second_half, Cert.KernelIdeal.Chain.messages_array,
    Cert.KernelIdeal.Entry.entry_rows, Cert.KernelIdeal.Entry.entry_rel, Cert.KernelIdeal.Entry.entry_weights]
  simp only [Cert.RotConv.StageFacts.invSqrtGuarded_eq]
  rw [Cert.RotConv.MessageBridge.messages_in_eq _ _ _ _ _ _ _ _
      (Cert.RotConv.StageFacts.gatheredRows_real _ h0 _) (Cert.RotConv.StageFacts.gatheredRel_real _ _ h3 h8 _) h5
      (Cert.RotConv.StageFacts.edgeWeight_real _),
    Cert.RotConv.MessageBridge.messages_out_eq _ _ _ _ _ _ _ _
      (Cert.RotConv.StageFacts.gatheredRows_real _ h0 _) (Cert.RotConv.StageFacts.gatheredRel_real _ _ h3 h8 _) h6
      (Cert.RotConv.StageFacts.edgeWeight_real _)]
  rw [Cert.RotConv.UpdateBridge.update_eq_host _ _ _ (m ((c.tc : Thread nD τ).loc main_arg3)) _ _]
  rfl

/-- The second result: the relation table times w_rel without its last row. -/
theorem kernel_rel :
    W13 (F := Ideal) m ρ c (Proc.devRef .tc main_v147)
      = Cert.ReferenceIdeal.RefValue.refRel (m ((c.tc : Thread nD τ).loc main_arg3)) (m ((c.tc : Thread nD τ).loc main_arg7))
          (m ((c.tc : Thread nD τ).loc main_arg8)) := by
  rw [Cert.KernelIdeal.Chain.result_rel]
  rfl

end Cert.Proof.Bridge

end
-- ==== Proof.lean ====
/-
  The certificate's five claims.

  The two kernel programs' frames are the generated frame certificates.  The reference is a host program: its frame is
  its run with the results dropped.  The idealization names one constant, the angle unit 33554432/16021061 (the exact
  reciprocal of the reference's divisor 16021061/33554432), at its two sites.  For the algebraic claim both runs end with
  the same two functions of the argument arrays: the reference by its own run, the idealized kernel by reading its
  run's final buffer contents back through the two regions (Proof/Bridge.lean), the precondition supplying that every
  float argument is a real number.
-/
import proofs.«178232_j34394098106413_2_alg».proof.Defs
import proofs.«178232_j34394098106413_2_alg».proof.Proof.Gen.Kernel
import proofs.«178232_j34394098106413_2_alg».proof.Proof.Gen.Kernel.Frame
import proofs.«178232_j34394098106413_2_alg».proof.Proof.Gen.KernelIdeal
import proofs.«178232_j34394098106413_2_alg».proof.Proof.Gen.KernelIdeal.Frame
import proofs.«178232_j34394098106413_2_alg».proof.Proof.Gen.ReferenceIdeal
import proofs.«178232_j34394098106413_2_alg».proof.Proof.Gen.Pre_finite_inputs
import proofs.«178232_j34394098106413_2_alg».proof.Proof.KernelRun
import proofs.«178232_j34394098106413_2_alg».proof.Proof.RefValue
import proofs.«178232_j34394098106413_2_alg».proof.Proof.FiniteInputs
import proofs.«178232_j34394098106413_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.RefValue.run m ρ)

/-- The ledger's two entries: the table gives the name the value 33554432/16021061, and the printed constant is that
    value at the ideal instance. -/
theorem preserves : Cert.preserves_Kernel_KernelIdeal :=
  ⟨IdealRules.named_const.statement Cert.KernelIdeal.κ "inv_angle_unit" .f32 0x40060A92#32 ((33554432 / 16021061 : ℝ) : EReal) rfl,
   IdealRules.named_const.statement Cert.KernelIdeal.κ "inv_angle_unit" .f32 0x40060A92#32 ((33554432 / 16021061 : ℝ) : EReal) rfl⟩

/-- Both runs end with the reference's two functions of the (shared) argument arrays. -/
theorem algebraic : Cert.algebraic_KernelIdeal_ReferenceIdeal := by
  intro m ρ m' ρ' hpre hagree
  refine ⟨fun c => Cert.ReferenceIdeal.RefValue.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)),
    fun c => Cert.ReferenceIdeal.RefValue.refRel (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Results.run_results (F := Ideal) m ρ)
    obtain ⟨h0, h3, _, h5, h6, _, h8⟩ := Cert.RotConv.FiniteInputs.real_inputs m hpre c
    exact ⟨(h c).1.trans (Cert.Proof.Bridge.kernel_out m ρ c h0 h3 h5 h6 h8),
      (h c).2.1.trans (Cert.Proof.Bridge.kernel_rel m ρ c), (h c).2.2⟩
  · refine (θ_run Cert.ReferenceIdeal.defs _ _).mono (fun r h c => ?_) (Cert.ReferenceIdeal.RefValue.run m' ρ')
    obtain ⟨e0, e1, e2, e3, e4, e5, e6, e7, e8⟩ := hagree c
    refine ⟨(h c).1.trans ?_, (h c).2.1.trans ?_, (h c).2.2⟩
    · rw [e0, e1, e2, e3, e4, e5, e6, e8]
    · rw [e3, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
